-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x6400000 : Shape := ⟨2, ![2, 6400000]⟩
abbrev S128x32 : Shape := ⟨2, ![128, 32]⟩
abbrev S32 : Shape := ⟨1, ![32]⟩
abbrev S32x2 : Shape := ⟨2, ![32, 2]⟩
abbrev S2 : Shape := ⟨1, ![2]⟩
abbrev S200000x32 : Shape := ⟨2, ![200000, 32]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_
  bcast_S_S200000x32 : S_.BroadcastsInDim S200000x32 (![] : Fin 0 → Fin S200000x32.rank)
  reducesTo_S200000x32_S_d0_1 : S200000x32.ReducesTo [0, 1] S_

variable [Facts]

def fn_part1 {F : FTy → Type} [FloatOps F] (main_arg5 : FVec F S2 .f32) (main_arg6 : FVec F S200000x32 .f32) (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S200000x32 .f32 := Host.absf main_arg6
  let main_cst_8 : FVec F S_ .f32 := constant S_ .f32 0x7F800000#32
  let main_v25 : FVec F S200000x32 .f32 := broadcastInDim S200000x32 ![] bcast_S_S200000x32 main_cst_8
  let main_v26 : IVec S200000x32 1 := cmpf .olt main_v24 main_v25
  let main_c_9 : IVec S_ 1 := constantI S_ 1 1#1
  let main_v27 : IVec S_ 1 := (fun x v => Host.reduce IntOp.andi x v reducesTo_S200000x32_S_d0_1 h_S_) main_v26 main_c_9
  let main_v28 : IVec S_ 1 := andi main_v23 main_v27
  main_v28

def fn {F : FTy → Type} [FloatOps F] (main_arg0 : FVec F S200000x128 .f32) (main_arg1 : IVec S2x6400000 32) (main_arg2 : FVec F S128x32 .f32) (main_arg3 : FVec F S32 .f32) (main_arg4 : FVec F S32x2 .f32) (main_arg5 : FVec F S2 .f32) (main_arg6 : FVec F S200000x32 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x2 .f32 := Host.absf main_arg4
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_arg5 main_arg6 main_v13 main_v16
-- ==== Kernel.lean ====
abbrev S200000x128 : Shape := ⟨2, ![200000, 128]⟩
abbrev S2x6400000 : Shape := ⟨2, ![2, 6400000]⟩
abbrev S128x32 : Shape := ⟨2, ![128, 32]⟩
abbrev S32 : Shape := ⟨1, ![32]⟩
abbrev S32x2 : Shape := ⟨2, ![32, 2]⟩
abbrev S2 : Shape := ⟨1, ![2]⟩
abbrev S200000x32 : Shape := ⟨2, ![200000, 32]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S8000x128 : Shape := ⟨2, ![8000, 128]⟩
abbrev S8000x32 : Shape := ⟨2, ![8000, 32]⟩
abbrev S6400000x32 : Shape := ⟨2, ![6400000, 32]⟩
abbrev S200000x1 : Shape := ⟨2, ![200000, 1]⟩
abbrev S1x32 : Shape := ⟨2, ![1, 32]⟩
abbrev S8000x1 : Shape := ⟨2, ![8000, 1]⟩
abbrev S200000x2 : Shape := ⟨2, ![200000, 2]⟩
abbrev S8000x2 : Shape := ⟨2, ![8000, 2]⟩
abbrev S6400000x2 : Shape := ⟨2, ![6400000, 2]⟩
abbrev S1x2 : Shape := ⟨2, ![1, 2]⟩

abbrev nBuf : Space → Nat
  | .hbm => 81
  | .vmem => 30
  | .smem => 0
  | _ => 0

abbrev bufTy : (tb : Table) → Fin (tcTables nBuf tb) → BufTy
  | .hbm, ⟨0, _⟩ => ⟨S200000x128, .f32⟩
  | .hbm, ⟨1, _⟩ => ⟨S2x6400000, .i32⟩
  | .hbm, ⟨2, _⟩ => ⟨S128x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S200000x32, .f32⟩
  | .hbm, ⟨7, _⟩ => ⟨S1x6400000, .i32⟩
  | .hbm, ⟨8, _⟩ => ⟨S6400000, .i32⟩
  | .hbm, ⟨9, _⟩ => ⟨S1x6400000, .i32⟩
  | .hbm, ⟨10, _⟩ => ⟨S6400000, .i32⟩
  | .hbm, ⟨11, _⟩ => ⟨S_, .f32⟩
  | .hbm, ⟨12, _⟩ => ⟨S6400000, .f32⟩
  | .hbm, ⟨13, _⟩ => ⟨S_, .f32⟩
  | .hbm, ⟨14, _⟩ => ⟨S200000, .f32⟩
  | .hbm, ⟨15, _⟩ => ⟨S6400000x1, .i32⟩
  | .hbm, ⟨16, _⟩ => ⟨S200000, .f32⟩
  | .hbm, ⟨17, _⟩ => ⟨S_, .f32⟩
  | .hbm, ⟨18, _⟩ => ⟨S200000, .f32⟩
  | .hbm, ⟨19, _⟩ => ⟨S200000, .f32⟩
  | .hbm, ⟨20, _⟩ => ⟨S200000, .f32⟩
  | .hbm, ⟨21, _⟩ => ⟨S200000, .f32⟩
  | .hbm, ⟨22, _⟩ => ⟨S_, .i32⟩
  | .hbm, ⟨23, _⟩ => ⟨S6400000, .i32⟩
  | .hbm, ⟨24, _⟩ => ⟨S6400000, .i1⟩
  | .hbm, ⟨25, _⟩ => ⟨S_, .i32⟩
  | .hbm, ⟨26, _⟩ => ⟨S6400000, .i32⟩
  | .hbm, ⟨27, _⟩ => ⟨S6400000, .i32⟩
  | .hbm, ⟨28, _⟩ => ⟨S6400000, .i32⟩
  | .hbm, ⟨29, _⟩ => ⟨S6400000x1, .i32⟩
  | .hbm, ⟨30, _⟩ => ⟨S6400000, .f32⟩
  | .hbm, ⟨31, _⟩ => ⟨S_, .i32⟩
  | .hbm, ⟨32, _⟩ => ⟨S6400000, .i32⟩
  | .hbm, ⟨33, _⟩ => ⟨S6400000, .i1⟩
  | .hbm, ⟨34, _⟩ => ⟨S_, .i32⟩
  | .hbm, ⟨35, _⟩ => ⟨S6400000, .i32⟩
  | .hbm, ⟨36, _⟩ => ⟨S6400000, .i32⟩
  | .hbm, ⟨37, _⟩ => ⟨S6400000, .i32⟩
  | .hbm, ⟨38, _⟩ => ⟨S6400000x1, .i32⟩
  | .hbm, ⟨39, _⟩ => ⟨S6400000, .f32⟩
  | .hbm, ⟨40, _⟩ => ⟨S6400000, .f32⟩
  | .hbm, ⟨41, _⟩ => ⟨S200000x32, .f32⟩
  | .hbm, ⟨42, _⟩ => ⟨S_, .i32⟩
  | .hbm, ⟨43, _⟩ => ⟨S6400000, .i32⟩
  | .hbm, ⟨44, _⟩ => ⟨S6400000, .i1⟩
  | .hbm, ⟨45, _⟩ => ⟨S_, .i32⟩
  | .hbm, ⟨46, _⟩ => ⟨S6400000, .i32⟩
  | .hbm, ⟨47, _⟩ => ⟨S6400000, .i32⟩
  | .hbm, ⟨48, _⟩ => ⟨S6400000, .i32⟩
  | .hbm, ⟨49, _⟩ => ⟨S6400000x1, .i32⟩
  | .hbm, ⟨50, _⟩ => ⟨S6400000x32, .f32⟩
  | .hbm, ⟨51, _⟩ => ⟨S6400000x1, .f32⟩
  | .hbm, ⟨52, _⟩ => ⟨S6400000x32, .f32⟩
  | .hbm, ⟨53, _⟩ => ⟨S6400000x32, .f32⟩
  | .hbm, ⟨54, _⟩ => ⟨S_, .f32⟩
  | .hbm, ⟨55, _⟩ => ⟨S200000x32, .f32⟩
  | .hbm, ⟨56, _⟩ => ⟨S6400000x1, .i32⟩
  | .hbm, ⟨57, _⟩ => ⟨S200000x32, .f32⟩
  | .hbm, ⟨58, _⟩ => ⟨S200000x1, .f32⟩
  | .hbm, ⟨59, _⟩ => ⟨S1x32, .f32⟩
  | .hbm, ⟨60, _⟩ => ⟨S200000x32, .f32⟩
  | .hbm, ⟨61, _⟩ => ⟨S200000x2, .f32⟩
  | .hbm, ⟨62, _⟩ => ⟨S_, .i32⟩
  | .hbm, ⟨63, _⟩ => ⟨S6400000, .i32⟩
  | .hbm, ⟨64, _⟩ => ⟨S6400000, .i1⟩
  | .hbm, ⟨65, _⟩ => ⟨S_, .i32⟩
  | .hbm, ⟨66, _⟩ => ⟨S6400000, .i32⟩
  | .hbm, ⟨67, _⟩ => ⟨S6400000, .i32⟩
  | .hbm, ⟨68, _⟩ => ⟨S6400000, .i32⟩
  | .hbm, ⟨69, _⟩ => ⟨S6400000x1, .i32⟩
  | .hbm, ⟨70, _⟩ => ⟨S6400000x2, .f32⟩
  | .hbm, ⟨71, _⟩ => ⟨S6400000x1, .f32⟩
  | .hbm, ⟨72, _⟩ => ⟨S6400000x2, .f32⟩
  | .hbm, ⟨73, _⟩ => ⟨S6400000x2, .f32⟩
  | .hbm, ⟨74, _⟩ => ⟨S_, .f32⟩
  | .hbm, ⟨75, _⟩ => ⟨S200000x2, .f32⟩
  | .hbm, ⟨76, _⟩ => ⟨S6400000x1, .i32⟩
  | .hbm, ⟨77, _⟩ => ⟨S200000x2, .f32⟩
  | .hbm, ⟨78, _⟩ => ⟨S200000x1, .f32⟩
  | .hbm, ⟨79, _⟩ => ⟨S1x2, .f32⟩
  | .hbm, ⟨80, _⟩ => ⟨S200000x2, .f32⟩
  | .local _ .vmem, ⟨0, _⟩ => ⟨S8000x128, .f32⟩
  | .local _ .vmem, ⟨1, _⟩ => ⟨S8000x128, .f32⟩
  | .local _ .vmem, ⟨2, _⟩ => ⟨S128x32, .f32⟩
  | .local _ .vmem, ⟨3, _⟩ => ⟨S8000x32, .f32⟩
  | .local _ .vmem, ⟨4, _⟩ => ⟨S8000x32, .f32⟩
  | .local _ .vmem, ⟨5, _⟩ => ⟨S8000x32, .f32⟩
  | .local _ .vmem, ⟨6, _⟩ => ⟨S8000x32, .f32⟩
  | .local _ .vmem, ⟨7, _⟩ => ⟨S8000x32, .f32⟩
  | .local _ .vmem, ⟨8, _⟩ => ⟨S8000x32, .f32⟩
  | .local _ .vmem, ⟨9, _⟩ => ⟨S8000x1, .f32⟩
  | .local _ .vmem, ⟨10, _⟩ => ⟨S8000x1, .f32⟩
  | .local _ .vmem, ⟨11, _⟩ => ⟨S1x32, .f32⟩
  | .local _ .vmem, ⟨12, _⟩ => ⟨S8000x32, .f32⟩
  | .local _ .vmem, ⟨13, _⟩ => ⟨S8000x32, .f32⟩
  | .local _ .vmem, ⟨14, _⟩ => ⟨S8000x32, .f32⟩
  | .local _ .vmem, ⟨15, _⟩ => ⟨S8000x32, .f32⟩
  | .local _ .vmem, ⟨16, _⟩ => ⟨S8000x32, .f32⟩
  | .local _ .vmem, ⟨17, _⟩ => ⟨S8000x32, .f32⟩
  | .local _ .vmem, ⟨18, _⟩ => ⟨S32x2, .f32⟩
  | .local _ .vmem, ⟨19, _⟩ => ⟨S8000x2, .f32⟩
  | .local _ .vmem, ⟨20, _⟩ => ⟨S8000x2, .f32⟩
  | .local _ .vmem, ⟨21, _⟩ => ⟨S8000x2, .f32⟩
  | .local _ .vmem, ⟨22, _⟩ => ⟨S8000x2, .f32⟩
  | .local _ .vmem, ⟨23, _⟩ => ⟨S8000x2, .f32⟩
  | .local _ .vmem, ⟨24, _⟩ => ⟨S8000x2, .f32⟩
  | .local _ .vmem, ⟨25, _⟩ => ⟨S8000x1, .f32⟩
  | .local _ .vmem, ⟨26, _⟩ => ⟨S8000x1, .f32⟩
  | .local _ .vmem, ⟨27, _⟩ => ⟨S1x2, .f32⟩
  | .local _ .vmem, ⟨28, _⟩ => ⟨S8000x2, .f32⟩
  | .local _ .vmem, ⟨29, _⟩ => ⟨S8000x2, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S8000x32_S8000x32_0_0 : ∀ a, (![0, 0] : Fin 2 → Nat) a + S8000x32.size a ≤ S8000x32.size a
  h_S8000x32 : 0 < S8000x32.numel
  bcast_S6400000x1_S6400000x32_0_1 : S6400000x1.BroadcastsInDim S6400000x32 (![0, 1] : Fin 2 → Fin S6400000x32.rank)
  bcast_S_S200000x32 : S_.BroadcastsInDim S200000x32 (![] : Fin 0 → Fin S200000x32.rank)
  shapeCasts_S200000_S200000x1 : S200000.ShapeCasts S200000x1
  shapeCasts_S32_S1x32 : S32.ShapeCasts S1x32
  shapeCasts_S8000x32_S8000x32 : S8000x32.ShapeCasts S8000x32
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x32 : S8000x1.Broadcasts S8000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x2_S32x2_0_0 : ∀ a, (![0, 0] : Fin 2 → Nat) a + S32x2.size a ≤ S32x2.size a
  h_S32x2 : 0 < S32x2.numel
  inb_S8000x2_S8000x2_0_0 : ∀ a, (![0, 0] : Fin 2 → Nat) a + S8000x2.size a ≤ S8000x2.size a
  h_S8000x2 : 0 < S8000x2.numel
  bcast_S6400000x1_S6400000x2_0_1 : S6400000x1.BroadcastsInDim S6400000x2 (![0, 1] : Fin 2 → Fin S6400000x2.rank)
  bcast_S_S200000x2 : S_.BroadcastsInDim S200000x2 (![] : Fin 0 → Fin S200000x2.rank)
  shapeCasts_S2_S1x2 : S2.ShapeCasts S1x2
  shapeCasts_S8000x2_S8000x2 : S8000x2.ShapeCasts S8000x2
  broadcasts_S8000x1_S8000x2 : S8000x1.Broadcasts S8000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  dot_S8000x128_S128x32_S8000x32_1_0_0_1_n_n_wf : DotDims.WF S8000x128 S128x32 S8000x32 [1] [0] [0] [1] [] []
  gather_S200000x32_S6400000x1_S6400000x32_1_0_n_n_0_1_132_wf : GatherDims.WF S200000x32 S6400000x1 S6400000x32 [1] [0] [] [0] [] 1 ![1, 32]
  scatter_S200000x32_S6400000x1_S6400000x32_1_0_0_1_wf : ScatterDims.WF S200000x32 S6400000x1 S6400000x32 [1] [0] [0] 1
  dot_S8000x32_S32x2_S8000x2_1_0_0_1_n_n_wf : DotDims.WF S8000x32 S32x2 S8000x2 [1] [0] [0] [1] [] []
  gather_S200000x2_S6400000x1_S6400000x2_1_0_n_n_0_1_12_wf : GatherDims.WF S200000x2 S6400000x1 S6400000x2 [1] [0] [] [0] [] 1 ![1, 2]
  scatter_S200000x2_S6400000x1_S6400000x2_1_0_0_1_wf : ScatterDims.WF S200000x2 S6400000x1 S6400000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x32.size a ≤ S200000x32.size a
  hwx0_2 : ∀ i : grid0.Coords, EltTy.bits .f32 = 32 ∨ (Rect.block (s := S200000x32) S8000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S200000x32.size a
  hwx1_0 : ∀ i : grid1.Coords, EltTy.bits .f32 = 32 ∨ (Rect.block (s := S200000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S200000x32.size a
  hwx1_1 : ∀ i : grid1.Coords, EltTy.bits .f32 = 32 ∨ (Rect.block (s := S200000x32) S8000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S200000x1.size a
  hwx1_2 : ∀ i : grid1.Coords, EltTy.bits .f32 = 32 ∨ (Rect.block (s := S200000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x32.size a ≤ S200000x32.size a
  hwx1_4 : ∀ i : grid1.Coords, EltTy.bits .f32 = 32 ∨ (Rect.block (s := S200000x32) S8000x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x32.size a ≤ S200000x32.size a
  hwx1_5 : ∀ i : grid1.Coords, EltTy.bits .f32 = 32 ∨ (Rect.block (s := S200000x32) S8000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S200000x32.size a
  hwx2_0 : ∀ i : grid2.Coords, EltTy.bits .f32 = 32 ∨ (Rect.block (s := S200000x32) S8000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x2.size a ≤ S32x2.size a
  hwx2_1 : ∀ i : grid2.Coords, EltTy.bits .f32 = 32 ∨ (Rect.block (s := S32x2) S32x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x2.size a ≤ S200000x2.size a
  hwx2_2 : ∀ i : grid2.Coords, EltTy.bits .f32 = 32 ∨ (Rect.block (s := S200000x2) S8000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x2.size a ≤ S200000x2.size a
  hwx3_0 : ∀ i : grid3.Coords, EltTy.bits .f32 = 32 ∨ (Rect.block (s := S200000x2) S8000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x2.size a ≤ S200000x2.size a
  hwx3_1 : ∀ i : grid3.Coords, EltTy.bits .f32 = 32 ∨ (Rect.block (s := S200000x2) S8000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x1.size a ≤ S200000x1.size a
  hwx3_2 : ∀ i : grid3.Coords, EltTy.bits .f32 = 32 ∨ (Rect.block (s := S200000x1) S8000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x2.size a ≤ S200000x2.size a
  hwx3_4 : ∀ i : grid3.Coords, EltTy.bits .f32 = 32 ∨ (Rect.block (s := S200000x2) S8000x2.size (cc3_transform_4 i) (hinb3_4 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def dot_S8000x128_S128x32_S8000x32_1_0_0_1_n_n : DotDims S8000x128 S128x32 S8000x32 where
  lhsContracting := [1]
  rhsContracting := [0]
  lhsNonContracting := [0]
  rhsNonContracting := [1]
  lhsBatch := []
  rhsBatch := []
  wf := dot_S8000x128_S128x32_S8000x32_1_0_0_1_n_n_wf
def gather_S200000x32_S6400000x1_S6400000x32_1_0_n_n_0_1_132 : GatherDims S200000x32 S6400000x1 S6400000x32 where
  offsetDims := [1]
  collapsedSliceDims := [0]
  operandBatchingDims := []
  startIndicesBatchingDims := []
  startIndexMap := [0]
  indexVectorDim := 1
  sliceSizes := ![1, 32]
  wf := gather_S200000x32_S6400000x1_S6400000x32_1_0_n_n_0_1_132_wf
def scatter_S200000x32_S6400000x1_S6400000x32_1_0_0_1 : ScatterDims S200000x32 S6400000x1 S6400000x32 where
  updateWindowDims := [1]
  insertedWindowDims := [0]
  scatterDimsToOperandDims := [0]
  indexVectorDim := 1
  wf := scatter_S200000x32_S6400000x1_S6400000x32_1_0_0_1_wf
def dot_S8000x32_S32x2_S8000x2_1_0_0_1_n_n : DotDims S8000x32 S32x2 S8000x2 where
  lhsContracting := [1]
  rhsContracting := [0]
  lhsNonContracting := [0]
  rhsNonContracting := [1]
  lhsBatch := []
  rhsBatch := []
  wf := dot_S8000x32_S32x2_S8000x2_1_0_0_1_n_n_wf
def gather_S200000x2_S6400000x1_S6400000x2_1_0_n_n_0_1_12 : GatherDims S200000x2 S6400000x1 S6400000x2 where
  offsetDims := [1]
  collapsedSliceDims := [0]
  operandBatchingDims := []
  startIndicesBatchingDims := []
  startIndexMap := [0]
  indexVectorDim := 1
  sliceSizes := ![1, 2]
  wf := gather_S200000x2_S6400000x1_S6400000x2_1_0_n_n_0_1_12_wf
def scatter_S200000x2_S6400000x1_S6400000x2_1_0_0_1 : ScatterDims S200000x2 S6400000x1 S6400000x2 where
  updateWindowDims := [1]
  insertedWindowDims := [0]
  scatterDimsToOperandDims := [0]
  indexVectorDim := 1
  wf := scatter_S200000x2_S6400000x1_S6400000x2_1_0_0_1_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S8000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S8000x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43) S8000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S8000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S8000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S8000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S8000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S8000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S200000x128 : Shape := ⟨2, ![200000, 128]⟩
abbrev S2x6400000 : Shape := ⟨2, ![2, 6400000]⟩
abbrev S128x32 : Shape := ⟨2, ![128, 32]⟩
abbrev S32 : Shape := ⟨1, ![32]⟩
abbrev S32x2 : Shape := ⟨2, ![32, 2]⟩
abbrev S2 : Shape := ⟨1, ![2]⟩
abbrev S200000x32 : Shape := ⟨2, ![200000, 32]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S6400000x32 : Shape := ⟨2, ![6400000, 32]⟩
abbrev S200000x1 : Shape := ⟨2, ![200000, 1]⟩
abbrev S1x32 : Shape := ⟨2, ![1, 32]⟩
abbrev S200000x2 : Shape := ⟨2, ![200000, 2]⟩
abbrev S6400000x2 : Shape := ⟨2, ![6400000, 2]⟩
abbrev S1x2 : Shape := ⟨2, ![1, 2]⟩

abbrev nBuf : Space → Nat
  | .hbm => 132
  | .vmem => 0
  | .smem => 0
  | _ => 0

abbrev hbmTy0_0 (i : Nat) : BufTy := match i % 128 with
  | 0 => ⟨S200000x128, .f32⟩
  | 1 => ⟨S2x6400000, .i32⟩
  | 2 => ⟨S128x32, .f32⟩
  | 3 => ⟨S32, .f32⟩
  | 4 => ⟨S32x2, .f32⟩
  | 5 => ⟨S2, .f32⟩
  | 6 => ⟨S200000x32, .f32⟩
  | 7 => ⟨S1x6400000, .i32⟩
  | 8 => ⟨S6400000, .i32⟩
  | 9 => ⟨S1x6400000, .i32⟩
  | 10 => ⟨S6400000, .i32⟩
  | 11 => ⟨S200000x32, .f32⟩
  | 12 => ⟨S_, .f32⟩
  | 13 => ⟨S6400000, .f32⟩
  | 14 => ⟨S_, .f32⟩
  | 15 => ⟨S200000, .f32⟩
  | 16 => ⟨S6400000x1, .i32⟩
  | 17 => ⟨S200000, .f32⟩
  | 18 => ⟨S_, .f32⟩
  | 19 => ⟨S200000, .f32⟩
  | 20 => ⟨S200000, .f32⟩
  | 21 => ⟨S200000, .f32⟩
  | 22 => ⟨S_, .i32⟩
  | 23 => ⟨S6400000, .i32⟩
  | 24 => ⟨S6400000, .i1⟩
  | 25 => ⟨S_, .i32⟩
  | 26 => ⟨S6400000, .i32⟩
  | 27 => ⟨S6400000, .i32⟩
  | 28 => ⟨S6400000, .i32⟩
  | 29 => ⟨S6400000x1, .i32⟩
  | 30 => ⟨S6400000, .f32⟩
  | 31 => ⟨S_, .i32⟩
  | 32 => ⟨S6400000, .i32⟩
  | 33 => ⟨S6400000, .i1⟩
  | 34 => ⟨S_, .i32⟩
  | 35 => ⟨S6400000, .i32⟩
  | 36 => ⟨S6400000, .i32⟩
  | 37 => ⟨S6400000, .i32⟩
  | 38 => ⟨S6400000x1, .i32⟩
  | 39 => ⟨S6400000, .f32⟩
  | 40 => ⟨S6400000, .f32⟩
  | 41 => ⟨S_, .i32⟩
  | 42 => ⟨S6400000, .i32⟩
  | 43 => ⟨S6400000, .i1⟩
  | 44 => ⟨S_, .i32⟩
  | 45 => ⟨S6400000, .i32⟩
  | 46 => ⟨S6400000, .i32⟩
  | 47 => ⟨S6400000, .i32⟩
  | 48 => ⟨S6400000x1, .i32⟩
  | 49 => ⟨S6400000x32, .f32⟩
  | 50 => ⟨S6400000x1, .f32⟩
  | 51 => ⟨S6400000x32, .f32⟩
  | 52 => ⟨S6400000x32, .f32⟩
  | 53 => ⟨S_, .f32⟩
  | 54 => ⟨S200000x32, .f32⟩
  | 55 => ⟨S6400000x1, .i32⟩
  | 56 => ⟨S200000x32, .f32⟩
  | 57 => ⟨S200000, .f32⟩
  | 58 => ⟨S200000x1, .f32⟩
  | 59 => ⟨S200000x32, .f32⟩
  | 60 => ⟨S200000x32, .f32⟩
  | 61 => ⟨S200000x32, .f32⟩
  | 62 => ⟨S1x32, .f32⟩
  | 63 => ⟨S200000x32, .f32⟩
  | 64 => ⟨S200000x32, .f32⟩
  | 65 => ⟨S_, .f32⟩
  | 66 => ⟨S200000x32, .f32⟩
  | 67 => ⟨S200000x32, .f32⟩
  | 68 => ⟨S_, .f32⟩
  | 69 => ⟨S200000x32, .f32⟩
  | 70 => ⟨S200000x32, .i1⟩
  | 71 => ⟨S_, .f32⟩
  | 72 => ⟨S200000x32, .f32⟩
  | 73 => ⟨S200000x32, .f32⟩
  | 74 => ⟨S_, .f32⟩
  | 75 => ⟨S_, .f32⟩
  | 76 => ⟨S200000x32, .f32⟩
  | 77 => ⟨S200000x32, .f32⟩
  | 78 => ⟨S200000x2, .f32⟩
  | 79 => ⟨S_, .f32⟩
  | 80 => ⟨S6400000, .f32⟩
  | 81 => ⟨S_, .f32⟩
  | 82 => ⟨S200000, .f32⟩
  | 83 => ⟨S6400000x1, .i32⟩
  | 84 => ⟨S200000, .f32⟩
  | 85 => ⟨S_, .f32⟩
  | 86 => ⟨S200000, .f32⟩
  | 87 => ⟨S200000, .f32⟩
  | 88 => ⟨S200000, .f32⟩
  | 89 => ⟨S_, .i32⟩
  | 90 => ⟨S6400000, .i32⟩
  | 91 => ⟨S6400000, .i1⟩
  | 92 => ⟨S_, .i32⟩
  | 93 => ⟨S6400000, .i32⟩
  | 94 => ⟨S6400000, .i32⟩
  | 95 => ⟨S6400000, .i32⟩
  | 96 => ⟨S6400000x1, .i32⟩
  | 97 => ⟨S6400000, .f32⟩
  | 98 => ⟨S_, .i32⟩
  | 99 => ⟨S6400000, .i32⟩
  | 100 => ⟨S6400000, .i1⟩
  | 101 => ⟨S_, .i32⟩
  | 102 => ⟨S6400000, .i32⟩
  | 103 => ⟨S6400000, .i32⟩
  | 104 => ⟨S6400000, .i32⟩
  | 105 => ⟨S6400000x1, .i32⟩
  | 106 => ⟨S6400000, .f32⟩
  | 107 => ⟨S6400000, .f32⟩
  | 108 => ⟨S_, .i32⟩
  | 109 => ⟨S6400000, .i32⟩
  | 110 => ⟨S6400000, .i1⟩
  | 111 => ⟨S_, .i32⟩
  | 112 => ⟨S6400000, .i32⟩
  | 113 => ⟨S6400000, .i32⟩
  | 114 => ⟨S6400000, .i32⟩
  | 115 => ⟨S6400000x1, .i32⟩
  | 116 => ⟨S6400000x2, .f32⟩
  | 117 => ⟨S6400000x1, .f32⟩
  | 118 => ⟨S6400000x2, .f32⟩
  | 119 => ⟨S6400000x2, .f32⟩
  | 120 => ⟨S_, .f32⟩
  | 121 => ⟨S200000x2, .f32⟩
  | 122 => ⟨S6400000x1, .i32⟩
  | 123 => ⟨S200000x2, .f32⟩
  | 124 => ⟨S200000, .f32⟩
  | 125 => ⟨S200000x1, .f32⟩
  | 126 => ⟨S200000x2, .f32⟩
  | 127 => ⟨S200000x2, .f32⟩
  | _ => ⟨S200000x128, .f32⟩

abbrev hbmTy0_1 (i : Nat) : BufTy := match i % 128 with
  | 0 => ⟨S200000x2, .f32⟩
  | 1 => ⟨S1x2, .f32⟩
  | 2 => ⟨S200000x2, .f32⟩
  | 3 => ⟨S200000x2, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_call1_v0 : Ref sig .tc := ⟨.hbm, 75, rfl⟩
abbrev main_call1_v1 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_14 : Ref sig .tc := ⟨.hbm, 89, rfl⟩
abbrev main_v62 : Ref sig .tc := ⟨.hbm, 90, rfl⟩
abbrev main_v63 : Ref sig .tc := ⟨.hbm, 91, rfl⟩
abbrev main_c_15 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_16 : Ref sig .tc := ⟨.hbm, 98, rfl⟩
abbrev main_v69 : Ref sig .tc := ⟨.hbm, 99, rfl⟩
abbrev main_v70 : Ref sig .tc := ⟨.hbm, 100, rfl⟩
abbrev main_c_17 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_18 : Ref sig .tc := ⟨.hbm, 108, rfl⟩
abbrev main_v77 : Ref sig .tc := ⟨.hbm, 109, rfl⟩
abbrev main_v78 : Ref sig .tc := ⟨.hbm, 110, rfl⟩
abbrev main_c_19 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_20 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S6400000x1_S6400000x32_0_1 : S6400000x1.BroadcastsInDim S6400000x32 (![0, 1] : Fin 2 → Fin S6400000x32.rank)
  bcast_S_S200000x32 : S_.BroadcastsInDim S200000x32 (![] : Fin 0 → Fin S200000x32.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S6400000x1_S6400000x2_0_1 : S6400000x1.BroadcastsInDim S6400000x2 (![0, 1] : Fin 2 → Fin S6400000x2.rank)
  bcast_S_S200000x2 : S_.BroadcastsInDim S200000x2 (![] : Fin 0 → Fin S200000x2.rank)
  bcast_S200000x1_S200000x2_0_1 : S200000x1.BroadcastsInDim S200000x2 (![0, 1] : Fin 2 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  dot_S200000x128_S128x32_S200000x32_1_0_0_1_n_n_wf : DotDims.WF S200000x128 S128x32 S200000x32 [1] [0] [0] [1] [] []
  scatter_S200000_S6400000x1_S6400000_n_0_0_1_wf : ScatterDims.WF S200000 S6400000x1 S6400000 [] [0] [0] 1
  gather_S200000_S6400000x1_S6400000_n_0_n_n_0_1_1_wf : GatherDims.WF S200000 S6400000x1 S6400000 [] [0] [] [0] [] 1 ![1]
  gather_S200000x32_S6400000x1_S6400000x32_1_0_n_n_0_1_132_wf : GatherDims.WF S200000x32 S6400000x1 S6400000x32 [1] [0] [] [0] [] 1 ![1, 32]
  scatter_S200000x32_S6400000x1_S6400000x32_1_0_0_1_wf : ScatterDims.WF S200000x32 S6400000x1 S6400000x32 [1] [0] [0] 1
  dot_S200000x32_S32x2_S200000x2_1_0_0_1_n_n_wf : DotDims.WF S200000x32 S32x2 S200000x2 [1] [0] [0] [1] [] []
  gather_S200000x2_S6400000x1_S6400000x2_1_0_n_n_0_1_12_wf : GatherDims.WF S200000x2 S6400000x1 S6400000x2 [1] [0] [] [0] [] 1 ![1, 2]
  scatter_S200000x2_S6400000x1_S6400000x2_1_0_0_1_wf : ScatterDims.WF S200000x2 S6400000x1 S6400000x2 [1] [0] [0] 1

variable [Facts₀]

def dot_S200000x128_S128x32_S200000x32_1_0_0_1_n_n : DotDims S200000x128 S128x32 S200000x32 where
  lhsContracting := [1]
  rhsContracting := [0]
  lhsNonContracting := [0]
  rhsNonContracting := [1]
  lhsBatch := []
  rhsBatch := []
  wf := dot_S200000x128_S128x32_S200000x32_1_0_0_1_n_n_wf
def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def gather_S200000x32_S6400000x1_S6400000x32_1_0_n_n_0_1_132 : GatherDims S200000x32 S6400000x1 S6400000x32 where
  offsetDims := [1]
  collapsedSliceDims := [0]
  operandBatchingDims := []
  startIndicesBatchingDims := []
  startIndexMap := [0]
  indexVectorDim := 1
  sliceSizes := ![1, 32]
  wf := gather_S200000x32_S6400000x1_S6400000x32_1_0_n_n_0_1_132_wf
def scatter_S200000x32_S6400000x1_S6400000x32_1_0_0_1 : ScatterDims S200000x32 S6400000x1 S6400000x32 where
  updateWindowDims := [1]
  insertedWindowDims := [0]
  scatterDimsToOperandDims := [0]
  indexVectorDim := 1
  wf := scatter_S200000x32_S6400000x1_S6400000x32_1_0_0_1_wf
def dot_S200000x32_S32x2_S200000x2_1_0_0_1_n_n : DotDims S200000x32 S32x2 S200000x2 where
  lhsContracting := [1]
  rhsContracting := [0]
  lhsNonContracting := [0]
  rhsNonContracting := [1]
  lhsBatch := []
  rhsBatch := []
  wf := dot_S200000x32_S32x2_S200000x2_1_0_0_1_n_n_wf
def gather_S200000x2_S6400000x1_S6400000x2_1_0_n_n_0_1_12 : GatherDims S200000x2 S6400000x1 S6400000x2 where
  offsetDims := [1]
  collapsedSliceDims := [0]
  operandBatchingDims := []
  startIndicesBatchingDims := []
  startIndexMap := [0]
  indexVectorDim := 1
  sliceSizes := ![1, 2]
  wf := gather_S200000x2_S6400000x1_S6400000x2_1_0_n_n_0_1_12_wf
def scatter_S200000x2_S6400000x1_S6400000x2_1_0_0_1 : ScatterDims S200000x2 S6400000x1 S6400000x2 where
  updateWindowDims := [1]
  insertedWindowDims := [0]
  scatterDimsToOperandDims := [0]
  indexVectorDim := 1
  wf := scatter_S200000x2_S6400000x1_S6400000x2_1_0_0_1_wf

class Facts : Prop extends Facts₀ where

variable [Facts]
-- ==== Proof.KernelRun.lean ====
/-
  The idealized kernel's run with its result named.

  The program is seven segments: three stretches of host operations and four tiled regions. Its run ends with every
  unscoped buffer of a core at the last boundary's contents, the fold `W7` of the launch memory through the
  segments. Read at the result buffer this names the value the program returns; read at an argument buffer the
  fold walks back to the launch contents.
-/
import proofs.«172211_j45423574123075_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at that buffer, and the arguments are as launched. -/
theorem run_result : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Whole

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«172211_j45423574123075_1_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.Region0.lean ====
/-
  The first feature product, tile by tile, is the product of the whole arrays.

  The region's grid has 25 points; point `t` reads rows `8000 t … 8000 t + 7999` of the node features and the whole
  weight matrix, and writes the same rows of the result. Entry `(p, q)` of the written tile is the sum over `k` of
  feature `(8000 t + p, k)` times weight `(k, q)` — a change of float format on the way in is the identity on the
  extended reals — which is entry `(8000 t + p, q)` of the host's product of the two whole matrices. The 25 row
  blocks cover the result, so after the region the result array IS that product.
-/
import proofs.«172211_j45423574123075_1_alg».proof.Proof.Gen.KernelIdeal.Frame
import proofs.«172211_j45423574123075_1_alg».proof.Proof.Gen.ReferenceIdeal
import proofs.«172211_j45423574123075_1_alg».proof.Proof.LibPlainDot
import Idealize.ShloMosaic.Lib.Pipeline.Value
import Idealize.ShloMosaic.Lib.ValueIdx

set_option maxRecDepth 16384

noncomputable section

namespace Cert.KernelIdeal.Tile0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of the whole feature matrix with the first weight matrix, as the host computes it. -/
def prod (X : FVec Ideal S200000x128 .f32) (W : FVec Ideal S128x32 .f32) : FVec Ideal S200000x32 .f32 :=
  Host.dotGeneral (F := Ideal) Cert.ReferenceIdeal.dot_S200000x128_S128x32_S200000x32_1_0_0_1_n_n none X W

/-- The index maps over the grid: the features and the result move down one row block per point, the weights stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` holds rows `8000 t + p` of the feature matrix. -/
theorem blk_x (c : Dev nD) (t : Fin cfg0.N) (p : Fin 8000) (k : Fin 128) (r : Fin 200000) (hr : r.val = 8000 * t.val + p.val) :
    (iblk0 V c 0 t : Vec Ideal S8000x128 .f32) (ix2 p k) = (V c main_arg0 : Vec Ideal S200000x128 .f32) (ix2 r k) := by
  obtain ⟨e0, e1, -⟩ := idx t
  unfold iblk0
  rw [View.read_apply]
  show V c main_arg0 _ = V c main_arg0 _
  refine congrArg _ (funext fun a => Fin.ext ?_)
  match a with
  | ⟨0, _⟩ => show win0_0.index t 0 * 8000 + 1 * p.val = r.val; omega
  | ⟨1, _⟩ => show win0_0.index t 1 * 128 + 1 * k.val = k.val; omega

/-- The weight block at every point is the whole weight matrix. -/
theorem blk_w (c : Dev nD) (t : Fin cfg0.N) (k : Fin 128) (q : Fin 32) :
    (iblk0 V c 1 t : Vec Ideal S128x32 .f32) (ix2 k q) = (V c main_arg2 : Vec Ideal S128x32 .f32) (ix2 k q) := by
  obtain ⟨-, -, e2, e3, -⟩ := idx t
  unfold iblk0
  rw [View.read_apply]
  show V c main_arg2 _ = V c main_arg2 _
  refine congrArg _ (funext fun a => Fin.ext ?_)
  match a with
  | ⟨0, _⟩ => show win0_1.index t 0 * 128 + 1 * k.val = k.val; omega
  | ⟨1, _⟩ => show win0_1.index t 1 * 32 + 1 * q.val = q.val; omega

/-- An entry of the tile the body stores: the row of the feature block against the column of the weights. -/
theorem pay_apply (x0 : Vec Ideal S8000x128 .f32) (x1 : Vec Ideal S128x32 .f32) (p : Fin 8000) (q : Fin 32) :
    k0_pay1 (F := Ideal) x0 x1 (ix2 p q) = ∑ k : Fin 128, x0 (ix2 p k) * x1 (ix2 k q) := by
  unfold k0_pay1
  exact LibPlainMatmul.matmul_zero_apply dot_S8000x128_S128x32_S8000x32_1_0_0_1_n_n rfl rfl rfl rfl rfl rfl none _ _ p q

/-- What point `t` writes back is block `t` of the whole product. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S8000x128) hz, View.ld_unit_zero (S := S128x32) hz]
  funext j
  obtain ⟨p, q, rfl⟩ : ∃ (p : Fin 8000) (q : Fin 32), j = ix2 p q := ⟨j 0, j 1, eq_ix2 j⟩
  obtain ⟨-, -, -, -, e4, e5⟩ := idx t
  have hp := p.isLt
  have ht : t.val < 25 := lt_of_lt_of_eq t.isLt (show cfg0.N = 25 from N_0)
  have hemb : ((cfg0.win 2).blk t).view.emb (ix2 p q) = (ix2 (⟨8000 * t.val + p.val, by omega⟩ : Fin 200000) q : S200000x32.Idx) := by
    funext a; apply Fin.ext
    match a with
    | ⟨0, _⟩ => show win0_2.index t 0 * 8000 + 1 * p.val = 8000 * t.val + p.val; omega
    | ⟨1, _⟩ => show win0_2.index t 1 * 32 + 1 * q.val = q.val; omega
  show k0_pay1 (iblk0 V c 0 t) (iblk0 V c 1 t) (ix2 p q) = prod (V c main_arg0) (V c main_arg2) (((cfg0.win 2).blk t).view.emb (ix2 p q))
  rw [hemb]
  refine (pay_apply (iblk0 V c 0 t) (iblk0 V c 1 t) p q).trans ?_
  unfold prod
  refine Eq.trans ?_ (LibPlainDot.dotGeneral_plain_apply Cert.ReferenceIdeal.dot_S200000x128_S128x32_S200000x32_1_0_0_1_n_n
    rfl rfl rfl rfl rfl rfl none .single _ _ (⟨8000 * t.val + p.val, by omega⟩ : Fin 200000) q).symm
  refine Finset.sum_congr rfl fun k _ => ?_
  rw [blk_x V c t p k ⟨8000 * t.val + p.val, by omega⟩ rfl, blk_w V c t k q]

/-- An index of the result is in point `t`'s block iff its row is in that point's row range. -/
theorem mem_blk (t : Fin cfg0.N) (i : S200000x32.Idx) :
    i ∈ ((cfg0.win 2).blk t).view.set ↔ ∀ a : Fin 2, win0_2.index t a * S8000x32.size a ≤ (i a).val ∧ (i a).val < win0_2.index t a * S8000x32.size a + S8000x32.size a := by
  show i ∈ ((View.whole main_v27).slice (win0_2.rect t)).set ↔ _
  rw [View.set_slice_whole, Rect.mem_set_unit]
  exact Iff.rfl

/-- Every index of the result is in the block of the point its row falls in. -/
theorem cover (i : S200000x32.Idx) : ∃ t : Fin cfg0.N, (cfg0.win 2).flush t = true ∧ i ∈ ((cfg0.win 2).blk t).view.set := by
  have hi0 : (i 0).val < 200000 := (i 0).isLt
  have hi1 : (i 1).val < 32 := (i 1).isLt
  have hN : cfg0.N = 25 := N_0
  refine ⟨⟨(i 0).val / 8000, by rw [hN]; omega⟩, flush0_2 _, ?_⟩
  rw [mem_blk]
  obtain ⟨-, -, -, -, e4, e5⟩ := idx ⟨(i 0).val / 8000, by rw [hN]; omega⟩
  intro a
  match a with
  | ⟨0, _⟩ =>
    show win0_2.index ⟨(i 0).val / 8000, _⟩ 0 * 8000 ≤ (i 0).val ∧ (i 0).val < win0_2.index ⟨(i 0).val / 8000, _⟩ 0 * 8000 + 8000
    rw [e4]; show (i 0).val / 8000 * 8000 ≤ (i 0).val ∧ (i 0).val < (i 0).val / 8000 * 8000 + 8000; omega
  | ⟨1, _⟩ =>
    show win0_2.index ⟨(i 0).val / 8000, _⟩ 1 * 32 ≤ (i 1).val ∧ (i 1).val < win0_2.index ⟨(i 0).val / 8000, _⟩ 1 * 32 + 32
    rw [e5]; omega

/-- After the region the result array is the whole product of the arrays the region found. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Tile0

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibRowBroadcast.lean ====
/-
  A vector laid out as a row and repeated down the rows, read at an entry.

  A length-`N` vector `v` made a `[1, N]` row — by a reshape, or by a broadcast along a new leading axis — has
  `v c` at `(0, c)`; the row repeated down `M` rows has `v c` at `(r, c)`. (For `N = 1` the repeated axis and
  the kept axis could not be told apart by their extents, hence the side condition.)
-/
import Idealize.ShloMosaic.Lib.ValueIdx
import Idealize.ShloMosaic.Lib.Pipeline.Value

noncomputable section

namespace Cert.LibRowBroadcast

open Idealize.ShloMosaic Idealize.ShloMosaic.ValueIdx

variable {α : Type}

/-- A vector reshaped to a `[1, N]` row, at `(0, c)`. -/
theorem row_cast {N : Nat} (v : (⟨1, ![N]⟩ : Shape).Idx → α) (h : (⟨1, ![N]⟩ : Shape).ShapeCasts ⟨2, ![1, N]⟩) (c : Fin N) :
    shapeCast ⟨2, ![1, N]⟩ v h (ix2 0 c) = v (ix1 c) :=
  shapeCast_apply v h (ix2 0 c) (ix1 c) (by
    rw [Shape.rowMajor_val_one, Shape.rowMajor_val_two]; show c.val = 0 * N + c.val; omega)

/-- A vector broadcast to a `[1, N]` row along a new leading axis, at `(0, c)`. -/
theorem row_bcast {N : Nat} (v : (⟨1, ![N]⟩ : Shape).Idx → α)
    (h : (⟨1, ![N]⟩ : Shape).BroadcastsInDim ⟨2, ![1, N]⟩ ![1]) (c : Fin N) :
    broadcastInDim ⟨2, ![1, N]⟩ ![1] h v (ix2 0 c) = v (ix1 c) :=
  broadcastInDim_apply ![1] h v (ix2 0 c) (ix1 c) (fun a => match a with
    | ⟨0, _⟩ => by
      show c.val = (if N = 1 then 0 else c.val)
      split
      · have := c.isLt; omega
      · rfl)

/-- A `[1, N]` row repeated down `M` rows, at `(r, c)`. -/
theorem rows_bcast {M N : Nat} (hN : N ≠ 1) (w : (⟨2, ![1, N]⟩ : Shape).Idx → α)
    (h : (⟨2, ![1, N]⟩ : Shape).BroadcastsInDim ⟨2, ![M, N]⟩ ![0, 1]) (r : Fin M) (c : Fin N) :
    broadcastInDim ⟨2, ![M, N]⟩ ![0, 1] h w (ix2 r c) = w (ix2 0 c) :=
  broadcastInDim_apply ![0, 1] h w (ix2 r c) (ix2 0 c) (fun a => match a with
    | ⟨0, _⟩ => by show 0 = (if (1 : ℕ) = 1 then 0 else r.val); rw [if_pos rfl]
    | ⟨1, _⟩ => by show c.val = (if N = 1 then 0 else c.val); rw [if_neg hN])

end Cert.LibRowBroadcast

end
-- ==== Proof.LibKeptAxes.lean ====
/-
  Kept unit axes on the host: a vector laid out as a column or as a row, and a column repeated along the rows.

  `broadcast_in_dim` of a length-`m` vector along `dims = [0]` into `[m, 1]` has the vector's entry `r` at `(r, 0)`,
  and so has the reshape of the vector to `[m, 1]`: the two layouts are one array. Likewise a length-`n` vector as
  a `[1, n]` row, by `dims = [1]` or by a reshape. An `[m, 1]` column spread over `n` columns by `dims = [0, 1]` has
  the column's entry of row `r` at `(r, c)`; a rank-0 value spread over any shape has that value everywhere.
-/
import proofs.«172211_j45423574123075_1_alg».proof.Proof.LibRows
import proofs.«172211_j45423574123075_1_alg».proof.Proof.LibRowBroadcast

noncomputable section

namespace Cert.LibKeptAxes

open Idealize.ShloMosaic Idealize.ShloMosaic.ValueIdx

variable {α : Type}

/-- A rank-0 value spread over a shape, at any index. -/
theorem scalar_bcast {t : Shape} (x : (⟨0, ![]⟩ : Shape).Idx → α) (dims : Fin 0 → Fin t.rank)
    (h : (⟨0, ![]⟩ : Shape).BroadcastsInDim t dims) (j : t.Idx) : broadcastInDim t dims h x j = x ix0 := by
  unfold broadcastInDim
  exact congrArg x (funext fun a => a.elim0)

/-- A vector spread to an `[m, 1]` column along a new trailing axis, at `(r, 0)`. -/
theorem col_bcast {m : Nat} (v : (⟨1, ![m]⟩ : Shape).Idx → α)
    (h : (⟨1, ![m]⟩ : Shape).BroadcastsInDim ⟨2, ![m, 1]⟩ ![0]) (r : Fin m) :
    broadcastInDim ⟨2, ![m, 1]⟩ ![0] h v (ix2 r 0) = v (ix1 r) :=
  broadcastInDim_apply ![0] h v (ix2 r 0) (ix1 r) (fun a => match a with
    | ⟨0, _⟩ => by
      show r.val = (if m = 1 then 0 else r.val)
      split
      · have := r.isLt; omega
      · rfl)

/-- An `[m, 1]` column repeated along `n` columns, at `(r, c)`. -/
theorem cols_bcast {m n : Nat} (w : (⟨2, ![m, 1]⟩ : Shape).Idx → α)
    (h : (⟨2, ![m, 1]⟩ : Shape).BroadcastsInDim ⟨2, ![m, n]⟩ ![0, 1]) (r : Fin m) (c : Fin n) :
    broadcastInDim ⟨2, ![m, n]⟩ ![0, 1] h w (ix2 r c) = w (ix2 r 0) :=
  broadcastInDim_apply ![0, 1] h w (ix2 r c) (ix2 r 0) (fun a => match a with
    | ⟨0, _⟩ => by
      show r.val = (if m = 1 then 0 else r.val)
      split
      · have := r.isLt; omega
      · rfl
    | ⟨1, _⟩ => by show 0 = (if (1 : ℕ) = 1 then 0 else c.val); rw [if_pos rfl])

/-- An index of an `[m, 1]` array is `(r, 0)`. -/
theorem idx_col {m : Nat} (j : (⟨2, ![m, 1]⟩ : Shape).Idx) : ∃ r : Fin m, j = ix2 r (0 : Fin 1) :=
  ⟨j 0, funext fun a => match a with
    | ⟨0, _⟩ => rfl
    | ⟨1, _⟩ => Fin.ext (by have := idx2_lt1 j; show (j 1).val = 0; omega)⟩

/-- An index of a `[1, n]` array is `(0, c)`. -/
theorem idx_row {n : Nat} (j : (⟨2, ![1, n]⟩ : Shape).Idx) : ∃ c : Fin n, j = ix2 (0 : Fin 1) c :=
  ⟨j 1, funext fun a => match a with
    | ⟨0, _⟩ => Fin.ext (by have := idx2_lt0 j; show (j 0).val = 0; omega)
    | ⟨1, _⟩ => rfl⟩

/-- The column made by a reshape is the column made by spreading along a new trailing axis. -/
theorem cast_col_eq_bcast {m : Nat} (v : (⟨1, ![m]⟩ : Shape).Idx → α)
    (h1 : (⟨1, ![m]⟩ : Shape).ShapeCasts ⟨2, ![m, 1]⟩) (h2 : (⟨1, ![m]⟩ : Shape).BroadcastsInDim ⟨2, ![m, 1]⟩ ![0]) :
    shapeCast ⟨2, ![m, 1]⟩ v h1 = broadcastInDim ⟨2, ![m, 1]⟩ ![0] h2 v := by
  funext j
  obtain ⟨r, rfl⟩ := idx_col j
  rw [Cert.Rows.cast_col, col_bcast]

/-- The row made by a reshape is the row made by spreading along a new leading axis. -/
theorem cast_row_eq_bcast {n : Nat} (v : (⟨1, ![n]⟩ : Shape).Idx → α)
    (h1 : (⟨1, ![n]⟩ : Shape).ShapeCasts ⟨2, ![1, n]⟩) (h2 : (⟨1, ![n]⟩ : Shape).BroadcastsInDim ⟨2, ![1, n]⟩ ![1]) :
    shapeCast ⟨2, ![1, n]⟩ v h1 = broadcastInDim ⟨2, ![1, n]⟩ ![1] h2 v := by
  funext j
  obtain ⟨c, rfl⟩ := idx_row j
  rw [Cert.LibRowBroadcast.row_cast, Cert.LibRowBroadcast.row_bcast]

end Cert.LibKeptAxes

end
-- ==== Proof.Region1.lean ====
/-
  The first layer's combining step with its activation, tile by tile, is one expression of the whole arrays.

  Point `t` of the region's 25 reads rows `8000 t … 8000 t + 7999` of the aggregated messages, of the transformed
  features, of the degree-factor column and of the uniform draws, and the whole bias row; it writes the same rows of
  the result. Each written cell is `agg + h · d + b`, clamped below at zero, doubled where the draw exceeds one half
  and zero elsewhere — a function of the five cells at its own row and column. The host's expression of the whole
  arrays (the column repeated along the rows, the bias row repeated down the rows, the constants spread) has the
  same cell at every index, and the 25 row blocks cover the result: after the region the result array is that
  expression.
-/
import proofs.«172211_j45423574123075_1_alg».proof.Proof.Gen.KernelIdeal.Frame
import proofs.«172211_j45423574123075_1_alg».proof.Proof.Gen.ReferenceIdeal
import proofs.«172211_j45423574123075_1_alg».proof.Proof.LibKeptAxes
import Idealize.ShloMosaic.Lib.Pipeline.Value
import Idealize.ShloMosaic.Lib.ValueIdx

set_option maxRecDepth 16384

noncomputable section

namespace Cert.KernelIdeal.Tile1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One cell of the step: `agg + h · d + b` clamped at zero, doubled where `u > 1/2`, else zero. -/
def cell (a h d b u : Ideal .f32) : Ideal .f32 :=
  Scalar.select (FloatOps.cmpf .ogt u (FloatOps.ofBits .f32 0x3F000000#32))
    (FloatOps.mulf (FloatOps.maximumf (FloatOps.addf (FloatOps.addf a (FloatOps.mulf h d)) b) (FloatOps.ofBits .f32 0x00000000#32))
      (FloatOps.ofBits .f32 0x40000000#32))
    (FloatOps.ofBits .f32 0x00000000#32)

/-- The step on whole arrays, in the host's operations. -/
def act (agg h : FVec Ideal S200000x32 .f32) (d : FVec Ideal S200000x1 .f32) (b : FVec Ideal S1x32 .f32)
    (du : FVec Ideal S200000x32 .f32) : FVec Ideal S200000x32 .f32 :=
  select (cmpf .ogt du (broadcastInDim S200000x32 ![] Cert.ReferenceIdeal.Gen.bcast_S_S200000x32 (constant S_ .f32 0x3F000000#32)))
    (mulf (maximumf (addf (addf agg (mulf h (broadcastInDim S200000x32 ![0, 1] Cert.ReferenceIdeal.Gen.bcast_S200000x1_S200000x32_0_1 d)))
              (broadcastInDim S200000x32 ![0, 1] Cert.ReferenceIdeal.Gen.bcast_S1x32_S200000x32_0_1 b))
            (broadcastInDim S200000x32 ![] Cert.ReferenceIdeal.Gen.bcast_S_S200000x32 (constant S_ .f32 0x00000000#32)))
          (broadcastInDim S200000x32 ![] Cert.ReferenceIdeal.Gen.bcast_S_S200000x32 (constant S_ .f32 0x40000000#32)))
    (broadcastInDim S200000x32 ![] Cert.ReferenceIdeal.Gen.bcast_S_S200000x32 (id (constant S_ .f32 0x00000000#32)))

/-- The whole-array expression at `(r, q)` is the cell of the five entries at that row and column. -/
theorem act_apply (agg h : FVec Ideal S200000x32 .f32) (d : FVec Ideal S200000x1 .f32) (b : FVec Ideal S1x32 .f32)
    (du : FVec Ideal S200000x32 .f32) (r : Fin 200000) (q : Fin 32) :
    act agg h d b du (ix2 r q) = cell (agg (ix2 r q)) (h (ix2 r q)) (d (ix2 r (0 : Fin 1))) (b (ix2 (0 : Fin 1) q)) (du (ix2 r q)) := by
  unfold act cell
  simp only [select, cmpf, mulf, maximumf, addf]
  rw [Cert.LibKeptAxes.cols_bcast d _ r q, Cert.LibRowBroadcast.rows_bcast (by decide) b _ r q]
  rfl

/-- The tile the body stores at `(p, q)` is the cell of the five blocks' entries at that row and column. -/
theorem pay_apply (x0 x1 : Vec Ideal S8000x32 .f32) (x2 : Vec Ideal S8000x1 .f32) (x3 : Vec Ideal S1x32 .f32)
    (x4 : Vec Ideal S8000x32 .f32) (p : Fin 8000) (q : Fin 32) :
    k1_pay1 (F := Ideal) x0 x1 x2 x3 x4 (ix2 p q)
      = cell (x0 (ix2 p q)) (x1 (ix2 p q)) (x2 (ix2 p (0 : Fin 1))) (x3 (ix2 (0 : Fin 1) q)) (x4 (ix2 p q)) := by
  unfold k1_pay1
  simp only [shapeCast_self]
  simp only [select, cmpf, mulf, maximumf, addf, broadcast]
  rw [Cert.Rows.bcast_col (by decide) x2 _ p q, Cert.Rows.bcast_row (by decide) x3 _ p q]
  rfl

/-! The index maps over the grid: every window moves down one row block per point, but the bias row, which stays. -/
theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 2) = t.val ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = t.val ∧ win1_4.index t (1 : Fin 2) = 0 :=
  (by decide +kernel : ∀ t : Fin grid1.N, _)
theorem idx5 : ∀ t : Fin cfg1.N, win1_5.index t (0 : Fin 2) = t.val ∧ win1_5.index t (1 : Fin 2) = 0 :=
  (by decide +kernel : ∀ t : Fin grid1.N, _)

/-- The block of aggregated messages at point `t` holds rows `8000 t + p` of that array. -/
theorem blk_agg (c : Dev nD) (t : Fin cfg1.N) (p : Fin 8000) (q : Fin 32) (r : Fin 200000) (hr : r.val = 8000 * t.val + p.val) :
    (iblk1 V c 0 t : Vec Ideal S8000x32 .f32) (ix2 p q) = (V c main_v40 : Vec Ideal S200000x32 .f32) (ix2 r q) := by
  obtain ⟨e0, e1⟩ := idx0 t
  unfold iblk1
  rw [View.read_apply]
  show V c main_v40 _ = V c main_v40 _
  refine congrArg _ (funext fun a => Fin.ext ?_)
  match a with
  | ⟨0, _⟩ => show win1_0.index t 0 * 8000 + 1 * p.val = r.val; omega
  | ⟨1, _⟩ => show win1_0.index t 1 * 32 + 1 * q.val = q.val; omega

/-- The block of transformed features at point `t` holds rows `8000 t + p` of that array. -/
theorem blk_h (c : Dev nD) (t : Fin cfg1.N) (p : Fin 8000) (q : Fin 32) (r : Fin 200000) (hr : r.val = 8000 * t.val + p.val) :
    (iblk1 V c 1 t : Vec Ideal S8000x32 .f32) (ix2 p q) = (V c main_v27 : Vec Ideal S200000x32 .f32) (ix2 r q) := by
  obtain ⟨e0, e1⟩ := idx1 t
  unfold iblk1
  rw [View.read_apply]
  show V c main_v27 _ = V c main_v27 _
  refine congrArg _ (funext fun a => Fin.ext ?_)
  match a with
  | ⟨0, _⟩ => show win1_1.index t 0 * 8000 + 1 * p.val = r.val; omega
  | ⟨1, _⟩ => show win1_1.index t 1 * 32 + 1 * q.val = q.val; omega

/-- The block of the degree-factor column at point `t` holds rows `8000 t + p` of the column. -/
theorem blk_d (c : Dev nD) (t : Fin cfg1.N) (p : Fin 8000) (r : Fin 200000) (hr : r.val = 8000 * t.val + p.val) :
    (iblk1 V c 2 t : Vec Ideal S8000x1 .f32) (ix2 p (0 : Fin 1)) = (V c main_v41 : Vec Ideal S200000x1 .f32) (ix2 r (0 : Fin 1)) := by
  obtain ⟨e0, e1⟩ := idx2 t
  unfold iblk1
  rw [View.read_apply]
  show V c main_v41 _ = V c main_v41 _
  refine congrArg _ (funext fun a => Fin.ext ?_)
  match a with
  | ⟨0, _⟩ => show win1_2.index t 0 * 8000 + 1 * p.val = r.val; omega
  | ⟨1, _⟩ => show win1_2.index t 1 * 1 + 1 * 0 = 0; omega

/-- The bias block at every point is the whole bias row. -/
theorem blk_b (c : Dev nD) (t : Fin cfg1.N) (q : Fin 32) :
    (iblk1 V c 3 t : Vec Ideal S1x32 .f32) (ix2 (0 : Fin 1) q) = (V c main_v42 : Vec Ideal S1x32 .f32) (ix2 (0 : Fin 1) q) := by
  obtain ⟨e0, e1⟩ := idx3 t
  unfold iblk1
  rw [View.read_apply]
  show V c main_v42 _ = V c main_v42 _
  refine congrArg _ (funext fun a => Fin.ext ?_)
  match a with
  | ⟨0, _⟩ => show win1_3.index t 0 * 1 + 1 * 0 = 0; omega
  | ⟨1, _⟩ => show win1_3.index t 1 * 32 + 1 * q.val = q.val; omega

/-- The block of uniform draws at point `t` holds rows `8000 t + p` of that array. -/
theorem blk_u (c : Dev nD) (t : Fin cfg1.N) (p : Fin 8000) (q : Fin 32) (r : Fin 200000) (hr : r.val = 8000 * t.val + p.val) :
    (iblk1 V c 4 t : Vec Ideal S8000x32 .f32) (ix2 p q) = (V c main_arg6 : Vec Ideal S200000x32 .f32) (ix2 r q) := by
  obtain ⟨e0, e1⟩ := idx4 t
  unfold iblk1
  rw [View.read_apply]
  show V c main_arg6 _ = V c main_arg6 _
  refine congrArg _ (funext fun a => Fin.ext ?_)
  match a with
  | ⟨0, _⟩ => show win1_4.index t 0 * 8000 + 1 * p.val = r.val; omega
  | ⟨1, _⟩ => show win1_4.index t 1 * 32 + 1 * q.val = q.val; omega

/-- What point `t` writes back is block `t` of the whole-array expression. -/
theorem flushed_eq (c : Dev nD) (t : Fin cfg1.N) :
    (dat1 V c).flushed 5 t = ((cfg1.win 5).blk t).view.read (Elt Ideal)
      (act (V c main_v40) (V c main_v27) (V c main_v41) (V c main_v42) (V c main_arg6)) := by
  show (cfg1.win 5).cut (grid1.coords t) ((dat1 V c).after 5 t) = _
  rw [after1_5]
  unfold out1_5
  rw [View.canon_unit_zero hz]
  simp only [View.ld_unit_zero (S := S8000x32) hz, View.ld_unit_zero (S := S8000x1) hz, View.ld_unit_zero (S := S1x32) hz]
  funext j
  obtain ⟨p, q, rfl⟩ : ∃ (p : Fin 8000) (q : Fin 32), j = ix2 p q := ⟨j 0, j 1, eq_ix2 j⟩
  obtain ⟨e0, e1⟩ := idx5 t
  have hp := p.isLt
  have ht : t.val < 25 := lt_of_lt_of_eq t.isLt (show cfg1.N = 25 from N_1)
  have hemb : ((cfg1.win 5).blk t).view.emb (ix2 p q) = (ix2 (⟨8000 * t.val + p.val, by omega⟩ : Fin 200000) q : S200000x32.Idx) := by
    funext a; apply Fin.ext
    match a with
    | ⟨0, _⟩ => show win1_5.index t 0 * 8000 + 1 * p.val = 8000 * t.val + p.val; omega
    | ⟨1, _⟩ => show win1_5.index t 1 * 32 + 1 * q.val = q.val; omega
  show k1_pay1 (iblk1 V c 0 t) (iblk1 V c 1 t) (iblk1 V c 2 t) (iblk1 V c 3 t) (iblk1 V c 4 t) (ix2 p q)
    = act (V c main_v40) (V c main_v27) (V c main_v41) (V c main_v42) (V c main_arg6) (((cfg1.win 5).blk t).view.emb (ix2 p q))
  rw [hemb]
  refine (pay_apply (iblk1 V c 0 t) (iblk1 V c 1 t) (iblk1 V c 2 t) (iblk1 V c 3 t) (iblk1 V c 4 t) p q).trans ?_
  refine Eq.trans ?_ (act_apply _ _ _ _ _ (⟨8000 * t.val + p.val, by omega⟩ : Fin 200000) q).symm
  rw [blk_agg V c t p q ⟨8000 * t.val + p.val, by omega⟩ rfl, blk_h V c t p q ⟨8000 * t.val + p.val, by omega⟩ rfl,
    blk_d V c t p ⟨8000 * t.val + p.val, by omega⟩ rfl, blk_b V c t q, blk_u V c t p q ⟨8000 * t.val + p.val, by omega⟩ rfl]

/-- An index of the result is in point `t`'s block iff its row is in that point's row range. -/
theorem mem_blk (t : Fin cfg1.N) (i : S200000x32.Idx) :
    i ∈ ((cfg1.win 5).blk t).view.set ↔ ∀ a : Fin 2, win1_5.index t a * S8000x32.size a ≤ (i a).val ∧ (i a).val < win1_5.index t a * S8000x32.size a + S8000x32.size a := by
  show i ∈ ((View.whole main_v43).slice (win1_5.rect t)).set ↔ _
  rw [View.set_slice_whole, Rect.mem_set_unit]
  exact Iff.rfl

/-- Every index of the result is in the block of the point its row falls in. -/
theorem cover (i : S200000x32.Idx) : ∃ t : Fin cfg1.N, (cfg1.win 5).flush t = true ∧ i ∈ ((cfg1.win 5).blk t).view.set := by
  have hi0 : (i 0).val < 200000 := (i 0).isLt
  have hi1 : (i 1).val < 32 := (i 1).isLt
  have hN : cfg1.N = 25 := N_1
  refine ⟨⟨(i 0).val / 8000, by rw [hN]; omega⟩, flush1_5 _, ?_⟩
  rw [mem_blk]
  obtain ⟨e0, e1⟩ := idx5 ⟨(i 0).val / 8000, by rw [hN]; omega⟩
  intro a
  match a with
  | ⟨0, _⟩ =>
    show win1_5.index ⟨(i 0).val / 8000, _⟩ 0 * 8000 ≤ (i 0).val ∧ (i 0).val < win1_5.index ⟨(i 0).val / 8000, _⟩ 0 * 8000 + 8000
    rw [e0]; show (i 0).val / 8000 * 8000 ≤ (i 0).val ∧ (i 0).val < (i 0).val / 8000 * 8000 + 8000; omega
  | ⟨1, _⟩ =>
    show win1_5.index ⟨(i 0).val / 8000, _⟩ 1 * 32 ≤ (i 1).val ∧ (i 1).val < win1_5.index ⟨(i 0).val / 8000, _⟩ 1 * 32 + 32
    rw [e1]; omega

/-- After the region the result array is the whole-array expression of the arrays the region found. -/
theorem final (c : Dev nD) : (dat1 V c).arrAt 5 cfg1.N
    = act (V c main_v40) (V c main_v27) (V c main_v41) (V c main_v42) (V c main_arg6) :=
  (dat1 V c).arrAt_eq_of_cover 5 (act (V c main_v40) (V c main_v27) (V c main_v41) (V c main_v42) (V c main_arg6))
    (fun t _ => flushed_eq V c t) cover

end Cert.KernelIdeal.Tile1

end
-- ==== Proof.Region2.lean ====
/-
  The second feature product, tile by tile, is the product of the whole arrays.

  The region's grid has 25 points; point `t` reads rows `8000 t … 8000 t + 7999` of the left matrix and the whole
  right matrix, and writes the same rows of the result. Entry `(p, q)` of the written tile is the sum over `k` of
  left `(8000 t + p, k)` times right `(k, q)` — a change of float format on the way in is the identity on the
  extended reals — which is entry `(8000 t + p, q)` of the host's product of the two whole matrices. The 25 row
  blocks cover the result, so after the region the result array IS that product.
-/
import proofs.«172211_j45423574123075_1_alg».proof.Proof.Gen.KernelIdeal.Frame
import proofs.«172211_j45423574123075_1_alg».proof.Proof.Gen.ReferenceIdeal
import proofs.«172211_j45423574123075_1_alg».proof.Proof.LibPlainDot
import Idealize.ShloMosaic.Lib.Pipeline.Value
import Idealize.ShloMosaic.Lib.ValueIdx

set_option maxRecDepth 16384

noncomputable section

namespace Cert.KernelIdeal.Tile2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of the two whole matrices, as the host computes it. -/
def prod (X : FVec Ideal S200000x32 .f32) (W : FVec Ideal S32x2 .f32) : FVec Ideal S200000x2 .f32 :=
  Host.dotGeneral (F := Ideal) Cert.ReferenceIdeal.dot_S200000x32_S32x2_S200000x2_1_0_0_1_n_n none X W

/-- The index maps over the grid: the left matrix and the result move down one row block per point, the right matrix stays. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left block at point `t` holds rows `8000 t + p` of the left matrix. -/
theorem blk_x (c : Dev nD) (t : Fin cfg2.N) (p : Fin 8000) (k : Fin 32) (r : Fin 200000) (hr : r.val = 8000 * t.val + p.val) :
    (iblk2 V c 0 t : Vec Ideal S8000x32 .f32) (ix2 p k) = (V c main_v43 : Vec Ideal S200000x32 .f32) (ix2 r k) := by
  obtain ⟨e0, e1, -⟩ := idx t
  unfold iblk2
  rw [View.read_apply]
  show V c main_v43 _ = V c main_v43 _
  refine congrArg _ (funext fun a => Fin.ext ?_)
  match a with
  | ⟨0, _⟩ => show win2_0.index t 0 * 8000 + 1 * p.val = r.val; omega
  | ⟨1, _⟩ => show win2_0.index t 1 * 32 + 1 * k.val = k.val; omega

/-- The right block at every point is the whole right matrix. -/
theorem blk_w (c : Dev nD) (t : Fin cfg2.N) (k : Fin 32) (q : Fin 2) :
    (iblk2 V c 1 t : Vec Ideal S32x2 .f32) (ix2 k q) = (V c main_arg4 : Vec Ideal S32x2 .f32) (ix2 k q) := by
  obtain ⟨-, -, e2, e3, -⟩ := idx t
  unfold iblk2
  rw [View.read_apply]
  show V c main_arg4 _ = V c main_arg4 _
  refine congrArg _ (funext fun a => Fin.ext ?_)
  match a with
  | ⟨0, _⟩ => show win2_1.index t 0 * 32 + 1 * k.val = k.val; omega
  | ⟨1, _⟩ => show win2_1.index t 1 * 2 + 1 * q.val = q.val; omega

/-- An entry of the tile the body stores: the row of the left block against the column of the right matrix. -/
theorem pay_apply (x0 : Vec Ideal S8000x32 .f32) (x1 : Vec Ideal S32x2 .f32) (p : Fin 8000) (q : Fin 2) :
    k2_pay1 (F := Ideal) x0 x1 (ix2 p q) = ∑ k : Fin 32, x0 (ix2 p k) * x1 (ix2 k q) := by
  unfold k2_pay1
  simp only [shapeCast_self]
  exact LibPlainMatmul.matmul_zero_apply dot_S8000x32_S32x2_S8000x2_1_0_0_1_n_n rfl rfl rfl rfl rfl rfl none _ _ p q

/-- What point `t` writes back is block `t` of the whole product. -/
theorem flushed_eq (c : Dev nD) (t : Fin cfg2.N) :
    (dat2 V c).flushed 2 t = ((cfg2.win 2).blk t).view.read (Elt Ideal) (prod (V c main_v43) (V c main_arg4)) := by
  show (cfg2.win 2).cut (grid2.coords t) ((dat2 V c).after 2 t) = _
  rw [after2_2]
  unfold out2_2
  rw [View.canon_unit_zero hz]
  simp only [View.ld_unit_zero (S := S8000x32) hz, View.ld_unit_zero (S := S32x2) hz]
  funext j
  obtain ⟨p, q, rfl⟩ : ∃ (p : Fin 8000) (q : Fin 2), j = ix2 p q := ⟨j 0, j 1, eq_ix2 j⟩
  obtain ⟨-, -, -, -, e4, e5⟩ := idx t
  have hp := p.isLt
  have ht : t.val < 25 := lt_of_lt_of_eq t.isLt (show cfg2.N = 25 from N_2)
  have hemb : ((cfg2.win 2).blk t).view.emb (ix2 p q) = (ix2 (⟨8000 * t.val + p.val, by omega⟩ : Fin 200000) q : S200000x2.Idx) := by
    funext a; apply Fin.ext
    match a with
    | ⟨0, _⟩ => show win2_2.index t 0 * 8000 + 1 * p.val = 8000 * t.val + p.val; omega
    | ⟨1, _⟩ => show win2_2.index t 1 * 2 + 1 * q.val = q.val; omega
  show k2_pay1 (iblk2 V c 0 t) (iblk2 V c 1 t) (ix2 p q) = prod (V c main_v43) (V c main_arg4) (((cfg2.win 2).blk t).view.emb (ix2 p q))
  rw [hemb]
  refine (pay_apply (iblk2 V c 0 t) (iblk2 V c 1 t) p q).trans ?_
  unfold prod
  refine Eq.trans ?_ (LibPlainDot.dotGeneral_plain_apply Cert.ReferenceIdeal.dot_S200000x32_S32x2_S200000x2_1_0_0_1_n_n
    rfl rfl rfl rfl rfl rfl none .single _ _ (⟨8000 * t.val + p.val, by omega⟩ : Fin 200000) q).symm
  refine Finset.sum_congr rfl fun k _ => ?_
  rw [blk_x V c t p k ⟨8000 * t.val + p.val, by omega⟩ rfl, blk_w V c t k q]

/-- An index of the result is in point `t`'s block iff its row is in that point's row range. -/
theorem mem_blk (t : Fin cfg2.N) (i : S200000x2.Idx) :
    i ∈ ((cfg2.win 2).blk t).view.set ↔ ∀ a : Fin 2, win2_2.index t a * S8000x2.size a ≤ (i a).val ∧ (i a).val < win2_2.index t a * S8000x2.size a + S8000x2.size a := by
  show i ∈ ((View.whole main_v44).slice (win2_2.rect t)).set ↔ _
  rw [View.set_slice_whole, Rect.mem_set_unit]
  exact Iff.rfl

/-- Every index of the result is in the block of the point its row falls in. -/
theorem cover (i : S200000x2.Idx) : ∃ t : Fin cfg2.N, (cfg2.win 2).flush t = true ∧ i ∈ ((cfg2.win 2).blk t).view.set := by
  have hi0 : (i 0).val < 200000 := (i 0).isLt
  have hi1 : (i 1).val < 2 := (i 1).isLt
  have hN : cfg2.N = 25 := N_2
  refine ⟨⟨(i 0).val / 8000, by rw [hN]; omega⟩, flush2_2 _, ?_⟩
  rw [mem_blk]
  obtain ⟨-, -, -, -, e4, e5⟩ := idx ⟨(i 0).val / 8000, by rw [hN]; omega⟩
  intro a
  match a with
  | ⟨0, _⟩ =>
    show win2_2.index ⟨(i 0).val / 8000, _⟩ 0 * 8000 ≤ (i 0).val ∧ (i 0).val < win2_2.index ⟨(i 0).val / 8000, _⟩ 0 * 8000 + 8000
    rw [e4]; show (i 0).val / 8000 * 8000 ≤ (i 0).val ∧ (i 0).val < (i 0).val / 8000 * 8000 + 8000; omega
  | ⟨1, _⟩ =>
    show win2_2.index ⟨(i 0).val / 8000, _⟩ 1 * 2 ≤ (i 1).val ∧ (i 1).val < win2_2.index ⟨(i 0).val / 8000, _⟩ 1 * 2 + 2
    rw [e5]; omega

/-- After the region the result array is the whole product of the arrays the region found. -/
theorem final (c : Dev nD) : (dat2 V c).arrAt 2 cfg2.N = prod (V c main_v43) (V c main_arg4) :=
  (dat2 V c).arrAt_eq_of_cover 2 (prod (V c main_v43) (V c main_arg4)) (fun t _ => flushed_eq V c t) cover

end Cert.KernelIdeal.Tile2

end
-- ==== Proof.Region3.lean ====
/-
  The second layer's combining step, tile by tile, is one expression of the whole arrays.

  Point `t` of the region's 25 reads rows `8000 t … 8000 t + 7999` of the aggregated messages, of the transformed
  features and of the degree-factor column, and the whole bias row; it writes the same rows of the result. Each
  written cell is `agg + h · d + b` of the four cells at its own row and column. The host's expression of the whole
  arrays (the column repeated along the rows, the bias row repeated down the rows) has the same cell at every index,
  and the 25 row blocks cover the result: after the region the result array is that expression.
-/
import proofs.«172211_j45423574123075_1_alg».proof.Proof.Gen.KernelIdeal.Frame
import proofs.«172211_j45423574123075_1_alg».proof.Proof.Gen.ReferenceIdeal
import proofs.«172211_j45423574123075_1_alg».proof.Proof.LibKeptAxes
import Idealize.ShloMosaic.Lib.Pipeline.Value
import Idealize.ShloMosaic.Lib.ValueIdx

set_option maxRecDepth 16384

noncomputable section

namespace Cert.KernelIdeal.Tile3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One cell of the step: `agg + h · d + b`. -/
def cell (a h d b : Ideal .f32) : Ideal .f32 :=
  FloatOps.addf (FloatOps.addf a (FloatOps.mulf h d)) b

/-- The step on whole arrays, in the host's operations. -/
def comb (agg h : FVec Ideal S200000x2 .f32) (d : FVec Ideal S200000x1 .f32) (b : FVec Ideal S1x2 .f32) :
    FVec Ideal S200000x2 .f32 :=
  addf (addf agg (mulf h (broadcastInDim S200000x2 ![0, 1] Cert.ReferenceIdeal.Gen.bcast_S200000x1_S200000x2_0_1 d)))
    (broadcastInDim S200000x2 ![0, 1] Cert.ReferenceIdeal.Gen.bcast_S1x2_S200000x2_0_1 b)

/-- The whole-array expression at `(r, q)` is the cell of the four entries at that row and column. -/
theorem comb_apply (agg h : FVec Ideal S200000x2 .f32) (d : FVec Ideal S200000x1 .f32) (b : FVec Ideal S1x2 .f32)
    (r : Fin 200000) (q : Fin 2) :
    comb agg h d b (ix2 r q) = cell (agg (ix2 r q)) (h (ix2 r q)) (d (ix2 r (0 : Fin 1))) (b (ix2 (0 : Fin 1) q)) := by
  unfold comb cell
  simp only [mulf, addf]
  rw [Cert.LibKeptAxes.cols_bcast d _ r q, Cert.LibRowBroadcast.rows_bcast (by decide) b _ r q]

/-- The tile the body stores at `(p, q)` is the cell of the four blocks' entries at that row and column. -/
theorem pay_apply (x0 x1 : Vec Ideal S8000x2 .f32) (x2 : Vec Ideal S8000x1 .f32) (x3 : Vec Ideal S1x2 .f32)
    (p : Fin 8000) (q : Fin 2) :
    k3_pay1 (F := Ideal) x0 x1 x2 x3 (ix2 p q)
      = cell (x0 (ix2 p q)) (x1 (ix2 p q)) (x2 (ix2 p (0 : Fin 1))) (x3 (ix2 (0 : Fin 1) q)) := by
  unfold k3_pay1 cell
  simp only [shapeCast_self]
  simp only [mulf, addf]
  rw [Cert.Rows.bcast_col (by decide) x2 _ p q, Cert.Rows.bcast_row (by decide) x3 _ p q]

/-! The index maps over the grid: every window moves down one row block per point, but the bias row, which stays. -/
theorem idx0 : ∀ t : Fin cfg3.N, win3_0.index t (0 : Fin 2) = t.val ∧ win3_0.index t (1 : Fin 2) = 0 :=
  (by decide +kernel : ∀ t : Fin grid3.N, _)
theorem idx1 : ∀ t : Fin cfg3.N, win3_1.index t (0 : Fin 2) = t.val ∧ win3_1.index t (1 : Fin 2) = 0 :=
  (by decide +kernel : ∀ t : Fin grid3.N, _)
theorem idx2 : ∀ t : Fin cfg3.N, win3_2.index t (0 : Fin 2) = t.val ∧ win3_2.index t (1 : Fin 2) = 0 :=
  (by decide +kernel : ∀ t : Fin grid3.N, _)
theorem idx3 : ∀ t : Fin cfg3.N, win3_3.index t (0 : Fin 2) = 0 ∧ win3_3.index t (1 : Fin 2) = 0 :=
  (by decide +kernel : ∀ t : Fin grid3.N, _)
theorem idx4 : ∀ t : Fin cfg3.N, win3_4.index t (0 : Fin 2) = t.val ∧ win3_4.index t (1 : Fin 2) = 0 :=
  (by decide +kernel : ∀ t : Fin grid3.N, _)

/-- The block of aggregated messages at point `t` holds rows `8000 t + p` of that array. -/
theorem blk_agg (c : Dev nD) (t : Fin cfg3.N) (p : Fin 8000) (q : Fin 2) (r : Fin 200000) (hr : r.val = 8000 * t.val + p.val) :
    (iblk3 V c 0 t : Vec Ideal S8000x2 .f32) (ix2 p q) = (V c main_v57 : Vec Ideal S200000x2 .f32) (ix2 r q) := by
  obtain ⟨e0, e1⟩ := idx0 t
  unfold iblk3
  rw [View.read_apply]
  show V c main_v57 _ = V c main_v57 _
  refine congrArg _ (funext fun a => Fin.ext ?_)
  match a with
  | ⟨0, _⟩ => show win3_0.index t 0 * 8000 + 1 * p.val = r.val; omega
  | ⟨1, _⟩ => show win3_0.index t 1 * 2 + 1 * q.val = q.val; omega

/-- The block of transformed features at point `t` holds rows `8000 t + p` of that array. -/
theorem blk_h (c : Dev nD) (t : Fin cfg3.N) (p : Fin 8000) (q : Fin 2) (r : Fin 200000) (hr : r.val = 8000 * t.val + p.val) :
    (iblk3 V c 1 t : Vec Ideal S8000x2 .f32) (ix2 p q) = (V c main_v44 : Vec Ideal S200000x2 .f32) (ix2 r q) := by
  obtain ⟨e0, e1⟩ := idx1 t
  unfold iblk3
  rw [View.read_apply]
  show V c main_v44 _ = V c main_v44 _
  refine congrArg _ (funext fun a => Fin.ext ?_)
  match a with
  | ⟨0, _⟩ => show win3_1.index t 0 * 8000 + 1 * p.val = r.val; omega
  | ⟨1, _⟩ => show win3_1.index t 1 * 2 + 1 * q.val = q.val; omega

/-- The block of the degree-factor column at point `t` holds rows `8000 t + p` of the column. -/
theorem blk_d (c : Dev nD) (t : Fin cfg3.N) (p : Fin 8000) (r : Fin 200000) (hr : r.val = 8000 * t.val + p.val) :
    (iblk3 V c 2 t : Vec Ideal S8000x1 .f32) (ix2 p (0 : Fin 1)) = (V c main_v58 : Vec Ideal S200000x1 .f32) (ix2 r (0 : Fin 1)) := by
  obtain ⟨e0, e1⟩ := idx2 t
  unfold iblk3
  rw [View.read_apply]
  show V c main_v58 _ = V c main_v58 _
  refine congrArg _ (funext fun a => Fin.ext ?_)
  match a with
  | ⟨0, _⟩ => show win3_2.index t 0 * 8000 + 1 * p.val = r.val; omega
  | ⟨1, _⟩ => show win3_2.index t 1 * 1 + 1 * 0 = 0; omega

/-- The bias block at every point is the whole bias row. -/
theorem blk_b (c : Dev nD) (t : Fin cfg3.N) (q : Fin 2) :
    (iblk3 V c 3 t : Vec Ideal S1x2 .f32) (ix2 (0 : Fin 1) q) = (V c main_v59 : Vec Ideal S1x2 .f32) (ix2 (0 : Fin 1) q) := by
  obtain ⟨e0, e1⟩ := idx3 t
  unfold iblk3
  rw [View.read_apply]
  show V c main_v59 _ = V c main_v59 _
  refine congrArg _ (funext fun a => Fin.ext ?_)
  match a with
  | ⟨0, _⟩ => show win3_3.index t 0 * 1 + 1 * 0 = 0; omega
  | ⟨1, _⟩ => show win3_3.index t 1 * 2 + 1 * q.val = q.val; omega

/-- What point `t` writes back is block `t` of the whole-array expression. -/
theorem flushed_eq (c : Dev nD) (t : Fin cfg3.N) :
    (dat3 V c).flushed 4 t = ((cfg3.win 4).blk t).view.read (Elt Ideal)
      (comb (V c main_v57) (V c main_v44) (V c main_v58) (V c main_v59)) := by
  show (cfg3.win 4).cut (grid3.coords t) ((dat3 V c).after 4 t) = _
  rw [after3_4]
  unfold out3_4
  rw [View.canon_unit_zero hz]
  simp only [View.ld_unit_zero (S := S8000x2) hz, View.ld_unit_zero (S := S8000x1) hz, View.ld_unit_zero (S := S1x2) hz]
  funext j
  obtain ⟨p, q, rfl⟩ : ∃ (p : Fin 8000) (q : Fin 2), j = ix2 p q := ⟨j 0, j 1, eq_ix2 j⟩
  obtain ⟨e0, e1⟩ := idx4 t
  have hp := p.isLt
  have ht : t.val < 25 := lt_of_lt_of_eq t.isLt (show cfg3.N = 25 from N_3)
  have hemb : ((cfg3.win 4).blk t).view.emb (ix2 p q) = (ix2 (⟨8000 * t.val + p.val, by omega⟩ : Fin 200000) q : S200000x2.Idx) := by
    funext a; apply Fin.ext
    match a with
    | ⟨0, _⟩ => show win3_4.index t 0 * 8000 + 1 * p.val = 8000 * t.val + p.val; omega
    | ⟨1, _⟩ => show win3_4.index t 1 * 2 + 1 * q.val = q.val; omega
  show k3_pay1 (iblk3 V c 0 t) (iblk3 V c 1 t) (iblk3 V c 2 t) (iblk3 V c 3 t) (ix2 p q)
    = comb (V c main_v57) (V c main_v44) (V c main_v58) (V c main_v59) (((cfg3.win 4).blk t).view.emb (ix2 p q))
  rw [hemb]
  refine (pay_apply (iblk3 V c 0 t) (iblk3 V c 1 t) (iblk3 V c 2 t) (iblk3 V c 3 t) p q).trans ?_
  refine Eq.trans ?_ (comb_apply _ _ _ _ (⟨8000 * t.val + p.val, by omega⟩ : Fin 200000) q).symm
  rw [blk_agg V c t p q ⟨8000 * t.val + p.val, by omega⟩ rfl, blk_h V c t p q ⟨8000 * t.val + p.val, by omega⟩ rfl,
    blk_d V c t p ⟨8000 * t.val + p.val, by omega⟩ rfl, blk_b V c t q]

/-- An index of the result is in point `t`'s block iff its row is in that point's row range. -/
theorem mem_blk (t : Fin cfg3.N) (i : S200000x2.Idx) :
    i ∈ ((cfg3.win 4).blk t).view.set ↔ ∀ a : Fin 2, win3_4.index t a * S8000x2.size a ≤ (i a).val ∧ (i a).val < win3_4.index t a * S8000x2.size a + S8000x2.size a := by
  show i ∈ ((View.whole main_v60).slice (win3_4.rect t)).set ↔ _
  rw [View.set_slice_whole, Rect.mem_set_unit]
  exact Iff.rfl

/-- Every index of the result is in the block of the point its row falls in. -/
theorem cover (i : S200000x2.Idx) : ∃ t : Fin cfg3.N, (cfg3.win 4).flush t = true ∧ i ∈ ((cfg3.win 4).blk t).view.set := by
  have hi0 : (i 0).val < 200000 := (i 0).isLt
  have hi1 : (i 1).val < 2 := (i 1).isLt
  have hN : cfg3.N = 25 := N_3
  refine ⟨⟨(i 0).val / 8000, by rw [hN]; omega⟩, flush3_4 _, ?_⟩
  rw [mem_blk]
  obtain ⟨e0, e1⟩ := idx4 ⟨(i 0).val / 8000, by rw [hN]; omega⟩
  intro a
  match a with
  | ⟨0, _⟩ =>
    show win3_4.index ⟨(i 0).val / 8000, _⟩ 0 * 8000 ≤ (i 0).val ∧ (i 0).val < win3_4.index ⟨(i 0).val / 8000, _⟩ 0 * 8000 + 8000
    rw [e0]; show (i 0).val / 8000 * 8000 ≤ (i 0).val ∧ (i 0).val < (i 0).val / 8000 * 8000 + 8000; omega
  | ⟨1, _⟩ =>
    show win3_4.index ⟨(i 0).val / 8000, _⟩ 1 * 2 ≤ (i 1).val ∧ (i 1).val < win3_4.index ⟨(i 0).val / 8000, _⟩ 1 * 2 + 2
    rw [e1]; omega

/-- After the region the result array is the whole-array expression of the arrays the region found. -/
theorem final (c : Dev nD) : (dat3 V c).arrAt 4 cfg3.N
    = comb (V c main_v57) (V c main_v44) (V c main_v58) (V c main_v59) :=
  (dat3 V c).arrAt_eq_of_cover 4 (comb (V c main_v57) (V c main_v44) (V c main_v58) (V c main_v59))
    (fun t _ => flushed_eq V c t) cover

end Cert.KernelIdeal.Tile3

end
-- ==== Proof.Walk.lean ====
/-
  The contents of the buffers the program reads, boundary by boundary.

  The program's seven segments take the launch memory through eight boundaries. At each boundary, each buffer a later
  segment still reads is named here as a function of the launch contents of the arguments: the edge sources and
  targets, the squared degree factor and the edge norm after the first stretch of host operations; the first
  product after the first region; the first aggregation and the column and row layouts after the second stretch;
  the activated layer after the second region; the second product after the third; the second aggregation after the
  last stretch; and the result after the last region. A stretch of host operations is read through the fold of its
  operations, a region through its whole-array theorem, and a buffer no segment writes keeps its contents. The
  functions are the reference program's own stages, so the last line names the reference's result.
-/
import proofs.«172211_j45423574123075_1_alg».proof.Proof.KernelRun
import proofs.«172211_j45423574123075_1_alg».proof.Proof.Region0
import proofs.«172211_j45423574123075_1_alg».proof.Proof.Region1
import proofs.«172211_j45423574123075_1_alg».proof.Proof.Region2
import proofs.«172211_j45423574123075_1_alg».proof.Proof.Region3
import proofs.«172211_j45423574123075_1_alg».proof.Proof.Gen.ReferenceIdeal.Read

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch of host operations -/

theorem W1_arg0 : W1 m ρ c (Proc.devRef .tc main_arg0) = (m ((c : Thread nD τ).loc main_arg0)) := by
  show StableHlo.after hostOps0 (W0 m ρ c) (Proc.devRef .tc main_arg0) = _
  dsimp only [hostOps0]
  after_results_simp <;> rfl
theorem W1_arg2 : W1 m ρ c (Proc.devRef .tc main_arg2) = (m ((c : Thread nD τ).loc main_arg2)) := by
  show StableHlo.after hostOps0 (W0 m ρ c) (Proc.devRef .tc main_arg2) = _
  dsimp only [hostOps0]
  after_results_simp <;> rfl
theorem W1_arg3 : W1 m ρ c (Proc.devRef .tc main_arg3) = (m ((c : Thread nD τ).loc main_arg3)) := by
  show StableHlo.after hostOps0 (W0 m ρ c) (Proc.devRef .tc main_arg3) = _
  dsimp only [hostOps0]
  after_results_simp <;> rfl
theorem W1_arg4 : W1 m ρ c (Proc.devRef .tc main_arg4) = (m ((c : Thread nD τ).loc main_arg4)) := by
  show StableHlo.after hostOps0 (W0 m ρ c) (Proc.devRef .tc main_arg4) = _
  dsimp only [hostOps0]
  after_results_simp <;> rfl
theorem W1_arg5 : W1 m ρ c (Proc.devRef .tc main_arg5) = (m ((c : Thread nD τ).loc main_arg5)) := by
  show StableHlo.after hostOps0 (W0 m ρ c) (Proc.devRef .tc main_arg5) = _
  dsimp only [hostOps0]
  after_results_simp <;> rfl
theorem W1_arg6 : W1 m ρ c (Proc.devRef .tc main_arg6) = (m ((c : Thread nD τ).loc main_arg6)) := by
  show StableHlo.after hostOps0 (W0 m ρ c) (Proc.devRef .tc main_arg6) = _
  dsimp only [hostOps0]
  after_results_simp <;> rfl
theorem W1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  dsimp only [hostOps0]
  after_results_simp
  rfl
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results_simp
  rfl
theorem W1_v11 : W1 m ρ c (Proc.devRef .tc main_v11) = Cert.ReferenceIdeal.Read.val_main_v40 (F := Ideal) (m ((c : Thread nD τ).loc main_arg1)) := by
  show StableHlo.after hostOps0 (W0 m ρ c) (Proc.devRef .tc main_v11) = _
  dsimp only [hostOps0]
  after_results_simp
  rfl
theorem W1_v26 : W1 m ρ c (Proc.devRef .tc main_v26) = Cert.ReferenceIdeal.Read.val_main_v26 (F := Ideal) (m ((c : Thread nD τ).loc main_arg1)) := by
  show StableHlo.after hostOps0 (W0 m ρ c) (Proc.devRef .tc main_v26) = _
  dsimp only [hostOps0]
  after_results_simp
  rfl

/-! ## After the first region: the first product; everything else as before -/

theorem W2_v27 : W2 m ρ c (Proc.devRef .tc main_v27) = Cert.ReferenceIdeal.Read.val_main_v4 (F := Ideal) (m ((c : Thread nD τ).loc main_arg0)) (m ((c : Thread nD τ).loc main_arg2)) := by
  refine (W2_arr m ρ c 2).trans ((Cert.KernelIdeal.Tile0.final (V1 m ρ) c).trans ?_)
  show Cert.KernelIdeal.Tile0.prod (W1 m ρ c (Proc.devRef .tc main_arg0)) (W1 m ρ c (Proc.devRef .tc main_arg2)) = _
  rw [W1_arg0, W1_arg2]
  rfl
theorem W2_v1 : W2 m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_v11 : W2 m ρ c (Proc.devRef .tc main_v11) = Cert.ReferenceIdeal.Read.val_main_v40 (F := Ideal) (m ((c : Thread nD τ).loc main_arg1)) :=
  (W2_of_ne m ρ c main_v11 (by decide)).trans (W1_v11 m ρ c)
theorem W2_v26 : W2 m ρ c (Proc.devRef .tc main_v26) = Cert.ReferenceIdeal.Read.val_main_v26 (F := Ideal) (m ((c : Thread nD τ).loc main_arg1)) :=
  (W2_of_ne m ρ c main_v26 (by decide)).trans (W1_v26 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)

/-! ## After the second stretch of host operations -/

theorem W3_v1 : W3 m ρ c (Proc.devRef .tc main_v1) = Cert.ReferenceIdeal.Read.val_main_v1 (F := Ideal) (m ((c : Thread nD τ).loc main_arg1)) := by
  show StableHlo.after hostOps1 (W2 m ρ c) (Proc.devRef .tc main_v1) = _
  dsimp only [hostOps1]
  after_results_simp
  exact W2_v1 m ρ c
theorem W3_v3 : W3 m ρ c (Proc.devRef .tc main_v3) = Cert.ReferenceIdeal.Read.val_main_v3 (F := Ideal) (m ((c : Thread nD τ).loc main_arg1)) := by
  show StableHlo.after hostOps1 (W2 m ρ c) (Proc.devRef .tc main_v3) = _
  dsimp only [hostOps1]
  after_results_simp
  exact W2_v3 m ρ c
theorem W3_v11 : W3 m ρ c (Proc.devRef .tc main_v11) = Cert.ReferenceIdeal.Read.val_main_v40 (F := Ideal) (m ((c : Thread nD τ).loc main_arg1)) := by
  show StableHlo.after hostOps1 (W2 m ρ c) (Proc.devRef .tc main_v11) = _
  dsimp only [hostOps1]
  after_results_simp
  exact W2_v11 m ρ c
theorem W3_v26 : W3 m ρ c (Proc.devRef .tc main_v26) = Cert.ReferenceIdeal.Read.val_main_v26 (F := Ideal) (m ((c : Thread nD τ).loc main_arg1)) := by
  show StableHlo.after hostOps1 (W2 m ρ c) (Proc.devRef .tc main_v26) = _
  dsimp only [hostOps1]
  after_results_simp
  exact W2_v26 m ρ c
theorem W3_v27 : W3 m ρ c (Proc.devRef .tc main_v27) = Cert.ReferenceIdeal.Read.val_main_v4 (F := Ideal) (m ((c : Thread nD τ).loc main_arg0)) (m ((c : Thread nD τ).loc main_arg2)) := by
  show StableHlo.after hostOps1 (W2 m ρ c) (Proc.devRef .tc main_v27) = _
  dsimp only [hostOps1]
  after_results_simp
  exact W2_v27 m ρ c
theorem W3_arg4 : W3 m ρ c (Proc.devRef .tc main_arg4) = (m ((c : Thread nD τ).loc main_arg4)) := by
  show StableHlo.after hostOps1 (W2 m ρ c) (Proc.devRef .tc main_arg4) = _
  dsimp only [hostOps1]
  after_results_simp
  exact W2_arg4 m ρ c
theorem W3_arg5 : W3 m ρ c (Proc.devRef .tc main_arg5) = (m ((c : Thread nD τ).loc main_arg5)) := by
  show StableHlo.after hostOps1 (W2 m ρ c) (Proc.devRef .tc main_arg5) = _
  dsimp only [hostOps1]
  after_results_simp
  exact W2_arg5 m ρ c
theorem W3_arg6 : W3 m ρ c (Proc.devRef .tc main_arg6) = (m ((c : Thread nD τ).loc main_arg6)) := by
  show StableHlo.after hostOps1 (W2 m ρ c) (Proc.devRef .tc main_arg6) = _
  dsimp only [hostOps1]
  after_results_simp
  exact W2_arg6 m ρ c
theorem W3_v40 : W3 m ρ c (Proc.devRef .tc main_v40) = Cert.ReferenceIdeal.Read.val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  dsimp only [hostOps1]
  after_results_simp
  rw [W2_v27, W2_v1, W2_v3, W2_v26]
  rfl
theorem W3_v41 : W3 m ρ c (Proc.devRef .tc main_v41) = shapeCast S200000x1 (Cert.ReferenceIdeal.Read.val_main_v40 (F := Ideal) (m ((c : Thread nD τ).loc main_arg1))) shapeCasts_S200000_S200000x1 := by
  show StableHlo.after hostOps1 (W2 m ρ c) (Proc.devRef .tc main_v41) = _
  dsimp only [hostOps1]
  after_results_simp
  rw [W2_v11]
  rfl
theorem W3_v42 : W3 m ρ c (Proc.devRef .tc main_v42) = shapeCast S1x32 (m ((c : Thread nD τ).loc main_arg3)) shapeCasts_S32_S1x32 := by
  show StableHlo.after hostOps1 (W2 m ρ c) (Proc.devRef .tc main_v42) = _
  dsimp only [hostOps1]
  after_results_simp
  rw [W2_arg3]
  rfl

/-! ## After the second region: the activated first layer -/

/-- The degree-factor column and the bias row reach the region by reshapes where the reference spreads them along a new
    axis: the same arrays. -/
theorem act_layouts (agg h : FVec Ideal S200000x32 .f32) (d2 : FVec Ideal S200000 .f32) (b : FVec Ideal S32 .f32)
    (du : FVec Ideal S200000x32 .f32) :
    Cert.KernelIdeal.Tile1.act agg h (shapeCast S200000x1 d2 shapeCasts_S200000_S200000x1) (shapeCast S1x32 b shapeCasts_S32_S1x32) du
      = Cert.KernelIdeal.Tile1.act agg h (broadcastInDim S200000x1 ![0] Cert.ReferenceIdeal.Gen.bcast_S200000_S200000x1_0 d2)
          (broadcastInDim S1x32 ![1] Cert.ReferenceIdeal.Gen.bcast_S32_S1x32_1 b) du := by
  rw [Cert.LibKeptAxes.cast_col_eq_bcast d2 shapeCasts_S200000_S200000x1 Cert.ReferenceIdeal.Gen.bcast_S200000_S200000x1_0,
    Cert.LibKeptAxes.cast_row_eq_bcast b shapeCasts_S32_S1x32 Cert.ReferenceIdeal.Gen.bcast_S32_S1x32_1]

theorem W4_v43 : W4 m ρ c (Proc.devRef .tc main_v43) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (W4_arr m ρ c 5).trans ((Cert.KernelIdeal.Tile1.final (V3 m ρ) c).trans ?_)
  show Cert.KernelIdeal.Tile1.act (W3 m ρ c (Proc.devRef .tc main_v40)) (W3 m ρ c (Proc.devRef .tc main_v27)) (W3 m ρ c (Proc.devRef .tc main_v41))
    (W3 m ρ c (Proc.devRef .tc main_v42)) (W3 m ρ c (Proc.devRef .tc main_arg6)) = _
  rw [W3_v40, W3_v27, W3_v41, W3_v42, W3_arg6]
  refine (act_layouts _ _ _ _ _).trans ?_
  rfl
theorem W4_v1 : W4 m ρ c (Proc.devRef .tc main_v1) = Cert.ReferenceIdeal.Read.val_main_v1 (F := Ideal) (m ((c : Thread nD τ).loc main_arg1)) :=
  (W4_of_ne m ρ c main_v1 (by decide)).trans (W3_v1 m ρ c)
theorem W4_v3 : W4 m ρ c (Proc.devRef .tc main_v3) = Cert.ReferenceIdeal.Read.val_main_v3 (F := Ideal) (m ((c : Thread nD τ).loc main_arg1)) :=
  (W4_of_ne m ρ c main_v3 (by decide)).trans (W3_v3 m ρ c)
theorem W4_v11 : W4 m ρ c (Proc.devRef .tc main_v11) = Cert.ReferenceIdeal.Read.val_main_v40 (F := Ideal) (m ((c : Thread nD τ).loc main_arg1)) :=
  (W4_of_ne m ρ c main_v11 (by decide)).trans (W3_v11 m ρ c)
theorem W4_v26 : W4 m ρ c (Proc.devRef .tc main_v26) = Cert.ReferenceIdeal.Read.val_main_v26 (F := Ideal) (m ((c : Thread nD τ).loc main_arg1)) :=
  (W4_of_ne m ρ c main_v26 (by decide)).trans (W3_v26 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)

/-! ## After the third region: the second product -/

theorem W5_v44 : W5 m ρ c (Proc.devRef .tc main_v44) = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (W5_arr m ρ c 2).trans ((Cert.KernelIdeal.Tile2.final (V4 m ρ) c).trans ?_)
  show Cert.KernelIdeal.Tile2.prod (W4 m ρ c (Proc.devRef .tc main_v43)) (W4 m ρ c (Proc.devRef .tc main_arg4)) = _
  rw [W4_v43, W4_arg4]
  rfl
theorem W5_v1 : W5 m ρ c (Proc.devRef .tc main_v1) = Cert.ReferenceIdeal.Read.val_main_v1 (F := Ideal) (m ((c : Thread nD τ).loc main_arg1)) :=
  (W5_of_ne m ρ c main_v1 (by decide)).trans (W4_v1 m ρ c)
theorem W5_v3 : W5 m ρ c (Proc.devRef .tc main_v3) = Cert.ReferenceIdeal.Read.val_main_v3 (F := Ideal) (m ((c : Thread nD τ).loc main_arg1)) :=
  (W5_of_ne m ρ c main_v3 (by decide)).trans (W4_v3 m ρ c)
theorem W5_v11 : W5 m ρ c (Proc.devRef .tc main_v11) = Cert.ReferenceIdeal.Read.val_main_v40 (F := Ideal) (m ((c : Thread nD τ).loc main_arg1)) :=
  (W5_of_ne m ρ c main_v11 (by decide)).trans (W4_v11 m ρ c)
theorem W5_v26 : W5 m ρ c (Proc.devRef .tc main_v26) = Cert.ReferenceIdeal.Read.val_main_v26 (F := Ideal) (m ((c : Thread nD τ).loc main_arg1)) :=
  (W5_of_ne m ρ c main_v26 (by decide)).trans (W4_v26 m ρ c)
theorem W5_arg5 : W5 m ρ c (Proc.devRef .tc main_arg5) = (m ((c : Thread nD τ).loc main_arg5)) :=
  (W5_of_ne m ρ c main_arg5 (by decide)).trans (W4_arg5 m ρ c)

/-! ## After the last stretch of host operations -/

theorem W6_v44 : W6 m ρ c (Proc.devRef .tc main_v44) = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  show StableHlo.after hostOps3 (W5 m ρ c) (Proc.devRef .tc main_v44) = _
  dsimp only [hostOps3]
  after_results_simp
  exact W5_v44 m ρ c
theorem W6_v57 : W6 m ρ c (Proc.devRef .tc main_v57) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  show StableHlo.after hostOps3 (W5 m ρ c) (Proc.devRef .tc main_v57) = _
  dsimp only [hostOps3]
  after_results_simp
  rw [W5_v44, W5_v1, W5_v3, W5_v26]
  rfl
theorem W6_v58 : W6 m ρ c (Proc.devRef .tc main_v58) = shapeCast S200000x1 (Cert.ReferenceIdeal.Read.val_main_v40 (F := Ideal) (m ((c : Thread nD τ).loc main_arg1))) shapeCasts_S200000_S200000x1 := by
  show StableHlo.after hostOps3 (W5 m ρ c) (Proc.devRef .tc main_v58) = _
  dsimp only [hostOps3]
  after_results_simp
  rw [W5_v11]
  rfl
theorem W6_v59 : W6 m ρ c (Proc.devRef .tc main_v59) = shapeCast S1x2 (m ((c : Thread nD τ).loc main_arg5)) shapeCasts_S2_S1x2 := by
  show StableHlo.after hostOps3 (W5 m ρ c) (Proc.devRef .tc main_v59) = _
  dsimp only [hostOps3]
  after_results_simp
  rw [W5_arg5]
  rfl

/-! ## After the last region: the result -/

/-- As in the first layer, the column and the row reach the region by reshapes where the reference spreads them. -/
theorem comb_layouts (agg h : FVec Ideal S200000x2 .f32) (d2 : FVec Ideal S200000 .f32) (b : FVec Ideal S2 .f32) :
    Cert.KernelIdeal.Tile3.comb agg h (shapeCast S200000x1 d2 shapeCasts_S200000_S200000x1) (shapeCast S1x2 b shapeCasts_S2_S1x2)
      = Cert.KernelIdeal.Tile3.comb agg h (broadcastInDim S200000x1 ![0] Cert.ReferenceIdeal.Gen.bcast_S200000_S200000x1_0 d2)
          (broadcastInDim S1x2 ![1] Cert.ReferenceIdeal.Gen.bcast_S2_S1x2_1 b) := by
  rw [Cert.LibKeptAxes.cast_col_eq_bcast d2 shapeCasts_S200000_S200000x1 Cert.ReferenceIdeal.Gen.bcast_S200000_S200000x1_0,
    Cert.LibKeptAxes.cast_row_eq_bcast b shapeCasts_S2_S1x2 Cert.ReferenceIdeal.Gen.bcast_S2_S1x2_1]

/-- The program's result is the reference's last stage of the launch contents of the arguments. -/
theorem W7_v60 : W7 m ρ c (Proc.devRef .tc main_v60) = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W7_arr m ρ c 4).trans ((Cert.KernelIdeal.Tile3.final (V6 m ρ) c).trans ?_)
  show Cert.KernelIdeal.Tile3.comb (W6 m ρ c (Proc.devRef .tc main_v57)) (W6 m ρ c (Proc.devRef .tc main_v44)) (W6 m ρ c (Proc.devRef .tc main_v58))
    (W6 m ρ c (Proc.devRef .tc main_v59)) = _
  rw [W6_v57, W6_v44, W6_v58, W6_v59]
  refine (comb_layouts _ _ _ _).trans ?_
  rfl

end Cert.KernelIdeal.Walk

end
-- ==== Proof.Claims.lean ====
/-
  The five claims.

  The two kernel programs' frames are generated whole, and the reference's frame is its generated run with the
  result dropped. The idealization rewrote nothing, so there is nothing to preserve. For the value claim: the
  idealized kernel's run ends with its result buffer at the last boundary's contents, which the walk through the
  boundaries names as the reference's last stage of the launch arguments; the reference's generated run ends at the
  same stage of its own arguments; and the two memories agree on the arguments.
-/
import proofs.«172211_j45423574123075_1_alg».proof.Defs
import proofs.«172211_j45423574123075_1_alg».proof.Proof.Gen.Kernel.Frame
import proofs.«172211_j45423574123075_1_alg».proof.Proof.Gen.KernelIdeal.Frame
import proofs.«172211_j45423574123075_1_alg».proof.Proof.Gen.ReferenceIdeal.Run
import proofs.«172211_j45423574123075_1_alg».proof.Proof.Gen.ReferenceIdeal.Read
import proofs.«172211_j45423574123075_1_alg».proof.Proof.Gen.Pre_finite_inputs
import proofs.«172211_j45423574123075_1_alg».proof.Proof.KernelRun
import proofs.«172211_j45423574123075_1_alg».proof.Proof.Walk

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the (agreeing) arguments in their result buffers. -/
theorem algebraic : Cert.algebraic_KernelIdeal_ReferenceIdeal := by
  intro m ρ m' ρ' _ hagree
  refine ⟨fun c => Cert.KernelIdeal.Gen.W7 m ρ c (Proc.devRef .tc Cert.KernelIdeal.main_v60),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  refine (Cert.ReferenceIdeal.Read.val_main_v97_eq m' c).trans (Eq.trans ?_ (Cert.KernelIdeal.Walk.W7_v60 m ρ c).symm)
  rw [h0, h1, h2, h3, h4, h5, h6]

end Cert.Proof.Claims

end
-- ==== Proof.lean ====
/-
  A two-layer graph convolution, its dense parts tiled over the node axis, against the plain formulation.

  Both programs compute, for node features `x`, edges `(src, dst)`, weights and biases `W1, b1, W2, b2` and uniform draws `u`:
  the degree factor `dis = rsqrt (in-degree + 1)`, the edge norm `dis[src] · dis[dst]`, then twice a layer
  `agg + h · dis² + b` with `h` the product of the layer's input with its weights and `agg` the sum over incoming edges of
  `h[src] · norm`; between the layers a clamp at zero and the mask `u > 1/2` with doubling. The kernel program computes the
  two products and the two combining steps in tiled regions of 25 row blocks and leaves the edge gathers and
  scatter-additions to host operations; the reference is host operations throughout. On the extended reals a tiled
  product is the whole product (Proof/Region0, Region2), a tiled pointwise step is the whole pointwise expression
  (Proof/Region1, Region3), the column and row layouts made by reshapes are those made by spreading along a new axis
  (Proof/LibKeptAxes), and every other operation is the same operation on the same operands: the walk through the
  program's boundaries (Proof/Walk) names each intermediate array as the reference's own stage. No law of arithmetic is
  used, so the precondition is never opened. The claims are assembled in Proof/Claims.
-/
import proofs.«172211_j45423574123075_1_alg».proof.Defs
import proofs.«172211_j45423574123075_1_alg».proof.Proof.Claims
import proofs.«172211_j45423574123075_1_alg».proof.Proof.Gen.Kernel
import proofs.«172211_j45423574123075_1_alg».proof.Proof.Gen.KernelIdeal
import proofs.«172211_j45423574123075_1_alg».proof.Proof.Gen.ReferenceIdeal
import proofs.«172211_j45423574123075_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
